-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S16x2048 : Shape := ⟨2, ![16, 2048]⟩
abbrev S768x16 : Shape := ⟨2, ![768, 16]⟩
abbrev S16 : Shape := ⟨1, ![16]⟩
abbrev S16x768 : Shape := ⟨2, ![16, 768]⟩
abbrev S768 : Shape := ⟨1, ![768]⟩
abbrev S768x32 : Shape := ⟨2, ![768, 32]⟩
abbrev S32 : Shape := ⟨1, ![32]⟩
abbrev S32x768 : Shape := ⟨2, ![32, 768]⟩
abbrev S768x64 : Shape := ⟨2, ![768, 64]⟩
abbrev S64 : Shape := ⟨1, ![64]⟩
abbrev S64x768 : Shape := ⟨2, ![64, 768]⟩
abbrev S768x128 : Shape := ⟨2, ![768, 128]⟩
abbrev S128 : Shape := ⟨1, ![128]⟩
abbrev S128x768 : Shape := ⟨2, ![128, 768]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S768x16 : S_.BroadcastsInDim S768x16 (![] : Fin 0 → Fin S768x16.rank)
  reducesTo_S768x16_S_d0_1 : S768x16.ReducesTo [0, 1] S_
  bcast_S_S16 : S_.BroadcastsInDim S16 (![] : Fin 0 → Fin S16.rank)
  reducesTo_S16_S_d0 : S16.ReducesTo [0] S_
  bcast_S_S16x768 : S_.BroadcastsInDim S16x768 (![] : Fin 0 → Fin S16x768.rank)
  reducesTo_S16x768_S_d0_1 : S16x768.ReducesTo [0, 1] S_
  bcast_S_S768 : S_.BroadcastsInDim S768 (![] : Fin 0 → Fin S768.rank)
  reducesTo_S768_S_d0 : S768.ReducesTo [0] S_
  bcast_S_S768x32 : S_.BroadcastsInDim S768x32 (![] : Fin 0 → Fin S768x32.rank)
  reducesTo_S768x32_S_d0_1 : S768x32.ReducesTo [0, 1] S_
  bcast_S_S32 : S_.BroadcastsInDim S32 (![] : Fin 0 → Fin S32.rank)
  reducesTo_S32_S_d0 : S32.ReducesTo [0] S_
  bcast_S_S32x768 : S_.BroadcastsInDim S32x768 (![] : Fin 0 → Fin S32x768.rank)
  reducesTo_S32x768_S_d0_1 : S32x768.ReducesTo [0, 1] S_
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x768 : S_.BroadcastsInDim S64x768 (![] : Fin 0 → Fin S64x768.rank)
  reducesTo_S64x768_S_d0_1 : S64x768.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_

variable [Facts]

def fn_part4 {F : FTy → Type} [FloatOps F] (main_arg15 : FVec F S128 .f32) (main_arg16 : FVec F S128x768 .f32) (main_arg17 : FVec F S768 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x768 .f32 := Host.absf main_arg16
  let main_cst_28 : FVec F S_ .f32 := constant S_ .f32 0x7F800000#32
  let main_v75 : FVec F S128x768 .f32 := broadcastInDim S128x768 ![] bcast_S_S128x768 main_cst_28
  let main_v76 : IVec S128x768 1 := cmpf .olt main_v74 main_v75
  let main_c_29 : IVec S_ 1 := constantI S_ 1 1#1
  let main_v77 : IVec S_ 1 := (fun x v => Host.reduce IntOp.andi x v reducesTo_S128x768_S_d0_1 h_S_) main_v76 main_c_29
  let main_v78 : IVec S_ 1 := andi main_v73 main_v77
  let main_v79 : FVec F S768 .f32 := Host.absf main_arg17
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  main_v83

def fn_part3 {F : FTy → Type} [FloatOps F] (main_arg12 : FVec F S64x768 .f32) (main_arg13 : FVec F S768 .f32) (main_arg14 : FVec F S768x128 .f32) (main_arg15 : FVec F S128 .f32) (main_arg16 : FVec F S128x768 .f32) (main_arg17 : FVec F S768 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x768 .f32 := Host.absf main_arg12
  let main_cst_20 : FVec F S_ .f32 := constant S_ .f32 0x7F800000#32
  let main_v55 : FVec F S64x768 .f32 := broadcastInDim S64x768 ![] bcast_S_S64x768 main_cst_20
  let main_v56 : IVec S64x768 1 := cmpf .olt main_v54 main_v55
  let main_c_21 : IVec S_ 1 := constantI S_ 1 1#1
  let main_v57 : IVec S_ 1 := (fun x v => Host.reduce IntOp.andi x v reducesTo_S64x768_S_d0_1 h_S_) main_v56 main_c_21
  let main_v58 : IVec S_ 1 := andi main_v53 main_v57
  let main_v59 : FVec F S768 .f32 := Host.absf main_arg13
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768x128 .f32 := Host.absf main_arg14
  let main_cst_24 : FVec F S_ .f32 := constant S_ .f32 0x7F800000#32
  let main_v65 : FVec F S768x128 .f32 := broadcastInDim S768x128 ![] bcast_S_S768x128 main_cst_24
  let main_v66 : IVec S768x128 1 := cmpf .olt main_v64 main_v65
  let main_c_25 : IVec S_ 1 := constantI S_ 1 1#1
  let main_v67 : IVec S_ 1 := (fun x v => Host.reduce IntOp.andi x v reducesTo_S768x128_S_d0_1 h_S_) main_v66 main_c_25
  fn_part4 (F := F) main_arg15 main_arg16 main_arg17 main_v63 main_v67

def fn_part2 {F : FTy → Type} [FloatOps F] (main_arg8 : FVec F S32x768 .f32) (main_arg9 : FVec F S768 .f32) (main_arg10 : FVec F S768x64 .f32) (main_arg11 : FVec F S64 .f32) (main_arg12 : FVec F S64x768 .f32) (main_arg13 : FVec F S768 .f32) (main_arg14 : FVec F S768x128 .f32) (main_arg15 : FVec F S128 .f32) (main_arg16 : FVec F S128x768 .f32) (main_arg17 : FVec F S768 .f32) (main_v33 : IVec S_ 1) : IVec S_ 1 :=
  let main_v34 : FVec F S32x768 .f32 := Host.absf main_arg8
  let main_cst_12 : FVec F S_ .f32 := constant S_ .f32 0x7F800000#32
  let main_v35 : FVec F S32x768 .f32 := broadcastInDim S32x768 ![] bcast_S_S32x768 main_cst_12
  let main_v36 : IVec S32x768 1 := cmpf .olt main_v34 main_v35
  let main_c_13 : IVec S_ 1 := constantI S_ 1 1#1
  let main_v37 : IVec S_ 1 := (fun x v => Host.reduce IntOp.andi x v reducesTo_S32x768_S_d0_1 h_S_) main_v36 main_c_13
  let main_v38 : IVec S_ 1 := andi main_v33 main_v37
  let main_v39 : FVec F S768 .f32 := Host.absf main_arg9
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x64 .f32 := Host.absf main_arg10
  let main_cst_16 : FVec F S_ .f32 := constant S_ .f32 0x7F800000#32
  let main_v45 : FVec F S768x64 .f32 := broadcastInDim S768x64 ![] bcast_S_S768x64 main_cst_16
  let main_v46 : IVec S768x64 1 := cmpf .olt main_v44 main_v45
  let main_c_17 : IVec S_ 1 := constantI S_ 1 1#1
  let main_v47 : IVec S_ 1 := (fun x v => Host.reduce IntOp.andi x v reducesTo_S768x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S768 .f32) (main_arg6 : FVec F S768x32 .f32) (main_arg7 : FVec F S32 .f32) (main_arg8 : FVec F S32x768 .f32) (main_arg9 : FVec F S768 .f32) (main_arg10 : FVec F S768x64 .f32) (main_arg11 : FVec F S64 .f32) (main_arg12 : FVec F S64x768 .f32) (main_arg13 : FVec F S768 .f32) (main_arg14 : FVec F S768x128 .f32) (main_arg15 : FVec F S128 .f32) (main_arg16 : FVec F S128x768 .f32) (main_arg17 : FVec F S768 .f32) (main_v13 : IVec S_ 1) (main_v16 : IVec S16x768 1) : IVec S_ 1 :=
  let main_c_5 : IVec S_ 1 := constantI S_ 1 1#1
  let main_v17 : IVec S_ 1 := (fun x v => Host.reduce IntOp.andi x v reducesTo_S16x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x32 .f32 := Host.absf main_arg6
  let main_cst_8 : FVec F S_ .f32 := constant S_ .f32 0x7F800000#32
  let main_v25 : FVec F S768x32 .f32 := broadcastInDim S768x32 ![] bcast_S_S768x32 main_cst_8
  let main_v26 : IVec S768x32 1 := cmpf .olt main_v24 main_v25
  let main_c_9 : IVec S_ 1 := constantI S_ 1 1#1
  let main_v27 : IVec S_ 1 := (fun x v => Host.reduce IntOp.andi x v reducesTo_S768x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S16x2048x768 .f32) (main_arg1 : IVec S16x2048 32) (main_arg2 : FVec F S768x16 .f32) (main_arg3 : FVec F S16 .f32) (main_arg4 : FVec F S16x768 .f32) (main_arg5 : FVec F S768 .f32) (main_arg6 : FVec F S768x32 .f32) (main_arg7 : FVec F S32 .f32) (main_arg8 : FVec F S32x768 .f32) (main_arg9 : FVec F S768 .f32) (main_arg10 : FVec F S768x64 .f32) (main_arg11 : FVec F S64 .f32) (main_arg12 : FVec F S64x768 .f32) (main_arg13 : FVec F S768 .f32) (main_arg14 : FVec F S768x128 .f32) (main_arg15 : FVec F S128 .f32) (main_arg16 : FVec F S128x768 .f32) (main_arg17 : FVec F S768 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S768x16 .f32 := Host.absf main_arg2
  let main_cst_0 : FVec F S_ .f32 := constant S_ .f32 0x7F800000#32
  let main_v5 : FVec F S768x16 .f32 := broadcastInDim S768x16 ![] bcast_S_S768x16 main_cst_0
  let main_v6 : IVec S768x16 1 := cmpf .olt main_v4 main_v5
  let main_c_1 : IVec S_ 1 := constantI S_ 1 1#1
  let main_v7 : IVec S_ 1 := (fun x v => Host.reduce IntOp.andi x v reducesTo_S768x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x768 .f32 := Host.absf main_arg4
  let main_cst_4 : FVec F S_ .f32 := constant S_ .f32 0x7F800000#32
  let main_v15 : FVec F S16x768 .f32 := broadcastInDim S16x768 ![] bcast_S_S16x768 main_cst_4
  let main_v16 : IVec S16x768 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S16x2048x768 : Shape := ⟨3, ![16, 2048, 768]⟩
abbrev S16x2048 : Shape := ⟨2, ![16, 2048]⟩
abbrev S768x16 : Shape := ⟨2, ![768, 16]⟩
abbrev S16 : Shape := ⟨1, ![16]⟩
abbrev S16x768 : Shape := ⟨2, ![16, 768]⟩
abbrev S768 : Shape := ⟨1, ![768]⟩
abbrev S768x32 : Shape := ⟨2, ![768, 32]⟩
abbrev S32 : Shape := ⟨1, ![32]⟩
abbrev S32x768 : Shape := ⟨2, ![32, 768]⟩
abbrev S768x64 : Shape := ⟨2, ![768, 64]⟩
abbrev S64 : Shape := ⟨1, ![64]⟩
abbrev S64x768 : Shape := ⟨2, ![64, 768]⟩
abbrev S768x128 : Shape := ⟨2, ![768, 128]⟩
abbrev S128 : Shape := ⟨1, ![128]⟩
abbrev S128x768 : Shape := ⟨2, ![128, 768]⟩
abbrev S32768x768 : Shape := ⟨2, ![32768, 768]⟩
abbrev S32768x1 : Shape := ⟨2, ![32768, 1]⟩
abbrev S1x16 : Shape := ⟨2, ![1, 16]⟩
abbrev S1x32 : Shape := ⟨2, ![1, 32]⟩
abbrev S1x64 : Shape := ⟨2, ![1, 64]⟩
abbrev S1x128 : Shape := ⟨2, ![1, 128]⟩
abbrev S1x768 : Shape := ⟨2, ![1, 768]⟩
abbrev S2048x768 : Shape := ⟨2, ![2048, 768]⟩
abbrev S2048x1 : Shape := ⟨2, ![2048, 1]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩

abbrev nBuf : Space → Nat
  | .hbm => 30
  | .vmem => 22
  | .smem => 0
  | _ => 0

abbrev bufTy : (tb : Table) → Fin (tcTables nBuf tb) → BufTy
  | .hbm, ⟨0, _⟩ => ⟨S16x2048x768, .f32⟩
  | .hbm, ⟨1, _⟩ => ⟨S16x2048, .i32⟩
  | .hbm, ⟨2, _⟩ => ⟨S768x16, .f32⟩
  | .hbm, ⟨3, _⟩ => ⟨S16, .f32⟩
  | .hbm, ⟨4, _⟩ => ⟨S16x768, .f32⟩
  | .hbm, ⟨5, _⟩ => ⟨S768, .f32⟩
  | .hbm, ⟨6, _⟩ => ⟨S768x32, .f32⟩
  | .hbm, ⟨7, _⟩ => ⟨S32, .f32⟩
  | .hbm, ⟨8, _⟩ => ⟨S32x768, .f32⟩
  | .hbm, ⟨9, _⟩ => ⟨S768, .f32⟩
  | .hbm, ⟨10, _⟩ => ⟨S768x64, .f32⟩
  | .hbm, ⟨11, _⟩ => ⟨S64, .f32⟩
  | .hbm, ⟨12, _⟩ => ⟨S64x768, .f32⟩
  | .hbm, ⟨13, _⟩ => ⟨S768, .f32⟩
  | .hbm, ⟨14, _⟩ => ⟨S768x128, .f32⟩
  | .hbm, ⟨15, _⟩ => ⟨S128, .f32⟩
  | .hbm, ⟨16, _⟩ => ⟨S128x768, .f32⟩
  | .hbm, ⟨17, _⟩ => ⟨S768, .f32⟩
  | .hbm, ⟨18, _⟩ => ⟨S32768x768, .f32⟩
  | .hbm, ⟨19, _⟩ => ⟨S32768x1, .i32⟩
  | .hbm, ⟨20, _⟩ => ⟨S1x16, .f32⟩
  | .hbm, ⟨21, _⟩ => ⟨S1x32, .f32⟩
  | .hbm, ⟨22, _⟩ => ⟨S1x64, .f32⟩
  | .hbm, ⟨23, _⟩ => ⟨S1x128, .f32⟩
  | .hbm, ⟨24, _⟩ => ⟨S1x768, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S32768x768, .f32⟩
  | .hbm, ⟨29, _⟩ => ⟨S16x2048x768, .f32⟩
  | .local _ .vmem, ⟨0, _⟩ => ⟨S2048x768, .f32⟩
  | .local _ .vmem, ⟨1, _⟩ => ⟨S2048x768, .f32⟩
  | .local _ .vmem, ⟨2, _⟩ => ⟨S2048x1, .i32⟩
  | .local _ .vmem, ⟨3, _⟩ => ⟨S2048x1, .i32⟩
  | .local _ .vmem, ⟨4, _⟩ => ⟨S768x16, .f32⟩
  | .local _ .vmem, ⟨5, _⟩ => ⟨S1x16, .f32⟩
  | .local _ .vmem, ⟨6, _⟩ => ⟨S16x768, .f32⟩
  | .local _ .vmem, ⟨7, _⟩ => ⟨S1x768, .f32⟩
  | .local _ .vmem, ⟨8, _⟩ => ⟨S768x32, .f32⟩
  | .local _ .vmem, ⟨9, _⟩ => ⟨S1x32, .f32⟩
  | .local _ .vmem, ⟨10, _⟩ => ⟨S32x768, .f32⟩
  | .local _ .vmem, ⟨11, _⟩ => ⟨S1x768, .f32⟩
  | .local _ .vmem, ⟨12, _⟩ => ⟨S768x64, .f32⟩
  | .local _ .vmem, ⟨13, _⟩ => ⟨S1x64, .f32⟩
  | .local _ .vmem, ⟨14, _⟩ => ⟨S64x768, .f32⟩
  | .local _ .vmem, ⟨15, _⟩ => ⟨S1x768, .f32⟩
  | .local _ .vmem, ⟨16, _⟩ => ⟨S768x128, .f32⟩
  | .local _ .vmem, ⟨17, _⟩ => ⟨S1x128, .f32⟩
  | .local _ .vmem, ⟨18, _⟩ => ⟨S128x768, .f32⟩
  | .local _ .vmem, ⟨19, _⟩ => ⟨S1x768, .f32⟩
  | .local _ .vmem, ⟨20, _⟩ => ⟨S2048x768, .f32⟩
  | .local _ .vmem, ⟨21, _⟩ => ⟨S2048x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S16x2048x768_S32768x768 : S16x2048x768.ShapeCasts S32768x768
  shapeCasts_S16x2048_S32768x1 : S16x2048.ShapeCasts S32768x1
  shapeCasts_S16_S1x16 : S16.ShapeCasts S1x16
  shapeCasts_S32_S1x32 : S32.ShapeCasts S1x32
  shapeCasts_S64_S1x64 : S64.ShapeCasts S1x64
  shapeCasts_S128_S1x128 : S128.ShapeCasts S1x128
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S768x16_S768x16_0_0 : ∀ a, (![0, 0] : Fin 2 → Nat) a + S768x16.size a ≤ S768x16.size a
  h_S768x16 : 0 < S768x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x768_S16x768_0_0 : ∀ a, (![0, 0] : Fin 2 → Nat) a + S16x768.size a ≤ S16x768.size a
  h_S16x768 : 0 < S16x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x16_S2048x16 : S1x16.Broadcasts S2048x16
  broadcasts_S1x768_S2048x768 : S1x768.Broadcasts S2048x768
  natLt_1_32 : 1 < 32
  broadcasts_S2048x1_S2048x768 : S2048x1.Broadcasts S2048x768
  inb_S768x32_S768x32_0_0 : ∀ a, (![0, 0] : Fin 2 → Nat) a + S768x32.size a ≤ S768x32.size a
  h_S768x32 : 0 < S768x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x768_S32x768_0_0 : ∀ a, (![0, 0] : Fin 2 → Nat) a + S32x768.size a ≤ S32x768.size a
  h_S32x768 : 0 < S32x768.numel
  broadcasts_S1x32_S2048x32 : S1x32.Broadcasts S2048x32
  inb_S768x64_S768x64_0_0 : ∀ a, (![0, 0] : Fin 2 → Nat) a + S768x64.size a ≤ S768x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x768_S64x768_0_0 : ∀ a, (![0, 0] : Fin 2 → Nat) a + S64x768.size a ≤ S64x768.size a
  h_S64x768 : 0 < S64x768.numel
  broadcasts_S1x64_S2048x64 : S1x64.Broadcasts S2048x64
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x768_S128x768_0_0 : ∀ a, (![0, 0] : Fin 2 → Nat) a + S128x768.size a ≤ S128x768.size a
  h_S128x768 : 0 < S128x768.numel
  broadcasts_S1x128_S2048x128 : S1x128.Broadcasts S2048x128
  shapeCasts_S32768x768_S16x2048x768 : S32768x768.ShapeCasts S16x2048x768
  dot_S2048x768_S768x16_S2048x16_1_0_0_1_n_n_wf : DotDims.WF S2048x768 S768x16 S2048x16 [1] [0] [0] [1] [] []
  dot_S2048x16_S16x768_S2048x768_1_0_0_1_n_n_wf : DotDims.WF S2048x16 S16x768 S2048x768 [1] [0] [0] [1] [] []
  dot_S2048x768_S768x32_S2048x32_1_0_0_1_n_n_wf : DotDims.WF S2048x768 S768x32 S2048x32 [1] [0] [0] [1] [] []
  dot_S2048x32_S32x768_S2048x768_1_0_0_1_n_n_wf : DotDims.WF S2048x32 S32x768 S2048x768 [1] [0] [0] [1] [] []
  dot_S2048x768_S768x64_S2048x64_1_0_0_1_n_n_wf : DotDims.WF S2048x768 S768x64 S2048x64 [1] [0] [0] [1] [] []
  dot_S2048x64_S64x768_S2048x768_1_0_0_1_n_n_wf : DotDims.WF S2048x64 S64x768 S2048x768 [1] [0] [0] [1] [] []
  dot_S2048x768_S768x128_S2048x128_1_0_0_1_n_n_wf : DotDims.WF S2048x768 S768x128 S2048x128 [1] [0] [0] [1] [] []
  dot_S2048x128_S128x768_S2048x768_1_0_0_1_n_n_wf : DotDims.WF S2048x128 S128x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x16.size a ≤ S768x16.size a
  hwx0_2 : ∀ i : grid0.Coords, EltTy.bits .f32 = 32 ∨ (Rect.block (s := S768x16) S768x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x768.size a ≤ S16x768.size a
  hwx0_4 : ∀ i : grid0.Coords, EltTy.bits .f32 = 32 ∨ (Rect.block (s := S16x768) S16x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x32.size a ≤ S768x32.size a
  hwx0_6 : ∀ i : grid0.Coords, EltTy.bits .f32 = 32 ∨ (Rect.block (s := S768x32) S768x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x768.size a ≤ S32x768.size a
  hwx0_8 : ∀ i : grid0.Coords, EltTy.bits .f32 = 32 ∨ (Rect.block (s := S32x768) S32x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x64.size a ≤ S768x64.size a
  hwx0_10 : ∀ i : grid0.Coords, EltTy.bits .f32 = 32 ∨ (Rect.block (s := S768x64) S768x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x768.size a ≤ S64x768.size a
  hwx0_12 : ∀ i : grid0.Coords, EltTy.bits .f32 = 32 ∨ (Rect.block (s := S64x768) S64x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x768.size a ≤ S1x768.size a
  hwx0_13 : ∀ i : grid0.Coords, EltTy.bits .f32 = 32 ∨ (Rect.block (s := S1x768) S1x768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768x128.size a ≤ S768x128.size a
  hwx0_14 : ∀ i : grid0.Coords, EltTy.bits .f32 = 32 ∨ (Rect.block (s := S768x128) S768x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x768.size a ≤ S128x768.size a
  hwx0_16 : ∀ i : grid0.Coords, EltTy.bits .f32 = 32 ∨ (Rect.block (s := S128x768) S128x768.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x768.size a ≤ S1x768.size a
  hwx0_17 : ∀ i : grid0.Coords, EltTy.bits .f32 = 32 ∨ (Rect.block (s := S1x768) S1x768.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x768.size a ≤ S32768x768.size a
  hwx0_18 : ∀ i : grid0.Coords, EltTy.bits .f32 = 32 ∨ (Rect.block (s := S32768x768) S2048x768.size (cc0_transform_18 i) (hinb0_18 i)).WholeWords (EltTy.packing .f32)

variable [Facts₀]

def dot_S2048x768_S768x16_S2048x16_1_0_0_1_n_n : DotDims S2048x768 S768x16 S2048x16 where
  lhsContracting := [1]
  rhsContracting := [0]
  lhsNonContracting := [0]
  rhsNonContracting := [1]
  lhsBatch := []
  rhsBatch := []
  wf := dot_S2048x768_S768x16_S2048x16_1_0_0_1_n_n_wf
def dot_S2048x16_S16x768_S2048x768_1_0_0_1_n_n : DotDims S2048x16 S16x768 S2048x768 where
  lhsContracting := [1]
  rhsContracting := [0]
  lhsNonContracting := [0]
  rhsNonContracting := [1]
  lhsBatch := []
  rhsBatch := []
  wf := dot_S2048x16_S16x768_S2048x768_1_0_0_1_n_n_wf
def dot_S2048x768_S768x32_S2048x32_1_0_0_1_n_n : DotDims S2048x768 S768x32 S2048x32 where
  lhsContracting := [1]
  rhsContracting := [0]
  lhsNonContracting := [0]
  rhsNonContracting := [1]
  lhsBatch := []
  rhsBatch := []
  wf := dot_S2048x768_S768x32_S2048x32_1_0_0_1_n_n_wf
def dot_S2048x32_S32x768_S2048x768_1_0_0_1_n_n : DotDims S2048x32 S32x768 S2048x768 where
  lhsContracting := [1]
  rhsContracting := [0]
  lhsNonContracting := [0]
  rhsNonContracting := [1]
  lhsBatch := []
  rhsBatch := []
  wf := dot_S2048x32_S32x768_S2048x768_1_0_0_1_n_n_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S2048x64_S64x768_S2048x768_1_0_0_1_n_n : DotDims S2048x64 S64x768 S2048x768 where
  lhsContracting := [1]
  rhsContracting := [0]
  lhsNonContracting := [0]
  rhsNonContracting := [1]
  lhsBatch := []
  rhsBatch := []
  wf := dot_S2048x64_S64x768_S2048x768_1_0_0_1_n_n_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S2048x128_S128x768_S2048x768_1_0_0_1_n_n : DotDims S2048x128 S128x768 S2048x768 where
  lhsContracting := [1]
  rhsContracting := [0]
  lhsNonContracting := [0]
  rhsNonContracting := [1]
  lhsBatch := []
  rhsBatch := []
  wf := dot_S2048x128_S128x768_S2048x768_1_0_0_1_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S768x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S768x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x768.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S1x768.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v10) S2048x768.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S16x2048x768 : Shape := ⟨3, ![16, 2048, 768]⟩
abbrev S16x2048 : Shape := ⟨2, ![16, 2048]⟩
abbrev S768x16 : Shape := ⟨2, ![768, 16]⟩
abbrev S16 : Shape := ⟨1, ![16]⟩
abbrev S16x768 : Shape := ⟨2, ![16, 768]⟩
abbrev S768 : Shape := ⟨1, ![768]⟩
abbrev S768x32 : Shape := ⟨2, ![768, 32]⟩
abbrev S32 : Shape := ⟨1, ![32]⟩
abbrev S32x768 : Shape := ⟨2, ![32, 768]⟩
abbrev S768x64 : Shape := ⟨2, ![768, 64]⟩
abbrev S64 : Shape := ⟨1, ![64]⟩
abbrev S64x768 : Shape := ⟨2, ![64, 768]⟩
abbrev S768x128 : Shape := ⟨2, ![768, 128]⟩
abbrev S128 : Shape := ⟨1, ![128]⟩
abbrev S128x768 : Shape := ⟨2, ![128, 768]⟩
abbrev S_ : Shape := ⟨0, ![]⟩
abbrev S16x2048x16 : Shape := ⟨3, ![16, 2048, 16]⟩
abbrev S1x1x16 : Shape := ⟨3, ![1, 1, 16]⟩
abbrev S1x1x768 : Shape := ⟨3, ![1, 1, 768]⟩
abbrev S16x2048x1 : Shape := ⟨3, ![16, 2048, 1]⟩
abbrev S16x2048x32 : Shape := ⟨3, ![16, 2048, 32]⟩
abbrev S1x1x32 : Shape := ⟨3, ![1, 1, 32]⟩
abbrev S16x2048x64 : Shape := ⟨3, ![16, 2048, 64]⟩
abbrev S1x1x64 : Shape := ⟨3, ![1, 1, 64]⟩
abbrev S16x2048x128 : Shape := ⟨3, ![16, 2048, 128]⟩
abbrev S1x1x128 : Shape := ⟨3, ![1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048, .i32⟩
  | .hbm, ⟨2, _⟩ => ⟨S768x16, .f32⟩
  | .hbm, ⟨3, _⟩ => ⟨S16, .f32⟩
  | .hbm, ⟨4, _⟩ => ⟨S16x768, .f32⟩
  | .hbm, ⟨5, _⟩ => ⟨S768, .f32⟩
  | .hbm, ⟨6, _⟩ => ⟨S768x32, .f32⟩
  | .hbm, ⟨7, _⟩ => ⟨S32, .f32⟩
  | .hbm, ⟨8, _⟩ => ⟨S32x768, .f32⟩
  | .hbm, ⟨9, _⟩ => ⟨S768, .f32⟩
  | .hbm, ⟨10, _⟩ => ⟨S768x64, .f32⟩
  | .hbm, ⟨11, _⟩ => ⟨S64, .f32⟩
  | .hbm, ⟨12, _⟩ => ⟨S64x768, .f32⟩
  | .hbm, ⟨13, _⟩ => ⟨S768, .f32⟩
  | .hbm, ⟨14, _⟩ => ⟨S768x128, .f32⟩
  | .hbm, ⟨15, _⟩ => ⟨S128, .f32⟩
  | .hbm, ⟨16, _⟩ => ⟨S128x768, .f32⟩
  | .hbm, ⟨17, _⟩ => ⟨S768, .f32⟩
  | .hbm, ⟨18, _⟩ => ⟨S_, .f32⟩
  | .hbm, ⟨19, _⟩ => ⟨S16x2048x768, .f32⟩
  | .hbm, ⟨20, _⟩ => ⟨S16x2048x16, .f32⟩
  | .hbm, ⟨21, _⟩ => ⟨S1x1x16, .f32⟩
  | .hbm, ⟨22, _⟩ => ⟨S16x2048x16, .f32⟩
  | .hbm, ⟨23, _⟩ => ⟨S16x2048x16, .f32⟩
  | .hbm, ⟨24, _⟩ => ⟨S_, .f32⟩
  | .hbm, ⟨25, _⟩ => ⟨S16x2048x16, .f32⟩
  | .hbm, ⟨26, _⟩ => ⟨S16x2048x16, .f32⟩
  | .hbm, ⟨27, _⟩ => ⟨S16x2048x768, .f32⟩
  | .hbm, ⟨28, _⟩ => ⟨S1x1x768, .f32⟩
  | .hbm, ⟨29, _⟩ => ⟨S16x2048x768, .f32⟩
  | .hbm, ⟨30, _⟩ => ⟨S16x2048x768, .f32⟩
  | .hbm, ⟨31, _⟩ => ⟨S16x2048x768, .f32⟩
  | .hbm, ⟨32, _⟩ => ⟨S_, .i32⟩
  | .hbm, ⟨33, _⟩ => ⟨S16x2048, .i32⟩
  | .hbm, ⟨34, _⟩ => ⟨S16x2048, .i1⟩
  | .hbm, ⟨35, _⟩ => ⟨S16x2048x1, .i1⟩
  | .hbm, ⟨36, _⟩ => ⟨S16x2048x1, .f32⟩
  | .hbm, ⟨37, _⟩ => ⟨S16x2048x768, .f32⟩
  | .hbm, ⟨38, _⟩ => ⟨S16x2048x768, .f32⟩
  | .hbm, ⟨39, _⟩ => ⟨S16x2048x768, .f32⟩
  | .hbm, ⟨40, _⟩ => ⟨S16x2048x32, .f32⟩
  | .hbm, ⟨41, _⟩ => ⟨S1x1x32, .f32⟩
  | .hbm, ⟨42, _⟩ => ⟨S16x2048x32, .f32⟩
  | .hbm, ⟨43, _⟩ => ⟨S16x2048x32, .f32⟩
  | .hbm, ⟨44, _⟩ => ⟨S_, .f32⟩
  | .hbm, ⟨45, _⟩ => ⟨S16x2048x32, .f32⟩
  | .hbm, ⟨46, _⟩ => ⟨S16x2048x32, .f32⟩
  | .hbm, ⟨47, _⟩ => ⟨S16x2048x768, .f32⟩
  | .hbm, ⟨48, _⟩ => ⟨S1x1x768, .f32⟩
  | .hbm, ⟨49, _⟩ => ⟨S16x2048x768, .f32⟩
  | .hbm, ⟨50, _⟩ => ⟨S16x2048x768, .f32⟩
  | .hbm, ⟨51, _⟩ => ⟨S16x2048x768, .f32⟩
  | .hbm, ⟨52, _⟩ => ⟨S_, .i32⟩
  | .hbm, ⟨53, _⟩ => ⟨S16x2048, .i32⟩
  | .hbm, ⟨54, _⟩ => ⟨S16x2048, .i1⟩
  | .hbm, ⟨55, _⟩ => ⟨S16x2048x1, .i1⟩
  | .hbm, ⟨56, _⟩ => ⟨S16x2048x1, .f32⟩
  | .hbm, ⟨57, _⟩ => ⟨S16x2048x768, .f32⟩
  | .hbm, ⟨58, _⟩ => ⟨S16x2048x768, .f32⟩
  | .hbm, ⟨59, _⟩ => ⟨S16x2048x768, .f32⟩
  | .hbm, ⟨60, _⟩ => ⟨S16x2048x64, .f32⟩
  | .hbm, ⟨61, _⟩ => ⟨S1x1x64, .f32⟩
  | .hbm, ⟨62, _⟩ => ⟨S16x2048x64, .f32⟩
  | .hbm, ⟨63, _⟩ => ⟨S16x2048x64, .f32⟩
  | .hbm, ⟨64, _⟩ => ⟨S_, .f32⟩
  | .hbm, ⟨65, _⟩ => ⟨S16x2048x64, .f32⟩
  | .hbm, ⟨66, _⟩ => ⟨S16x2048x64, .f32⟩
  | .hbm, ⟨67, _⟩ => ⟨S16x2048x768, .f32⟩
  | .hbm, ⟨68, _⟩ => ⟨S1x1x768, .f32⟩
  | .hbm, ⟨69, _⟩ => ⟨S16x2048x768, .f32⟩
  | .hbm, ⟨70, _⟩ => ⟨S16x2048x768, .f32⟩
  | .hbm, ⟨71, _⟩ => ⟨S16x2048x768, .f32⟩
  | .hbm, ⟨72, _⟩ => ⟨S_, .i32⟩
  | .hbm, ⟨73, _⟩ => ⟨S16x2048, .i32⟩
  | .hbm, ⟨74, _⟩ => ⟨S16x2048, .i1⟩
  | .hbm, ⟨75, _⟩ => ⟨S16x2048x1, .i1⟩
  | .hbm, ⟨76, _⟩ => ⟨S16x2048x1, .f32⟩
  | .hbm, ⟨77, _⟩ => ⟨S16x2048x768, .f32⟩
  | .hbm, ⟨78, _⟩ => ⟨S16x2048x768, .f32⟩
  | .hbm, ⟨79, _⟩ => ⟨S16x2048x768, .f32⟩
  | .hbm, ⟨80, _⟩ => ⟨S16x2048x128, .f32⟩
  | .hbm, ⟨81, _⟩ => ⟨S1x1x128, .f32⟩
  | .hbm, ⟨82, _⟩ => ⟨S16x2048x128, .f32⟩
  | .hbm, ⟨83, _⟩ => ⟨S16x2048x128, .f32⟩
  | .hbm, ⟨84, _⟩ => ⟨S_, .f32⟩
  | .hbm, ⟨85, _⟩ => ⟨S16x2048x128, .f32⟩
  | .hbm, ⟨86, _⟩ => ⟨S16x2048x128, .f32⟩
  | .hbm, ⟨87, _⟩ => ⟨S16x2048x768, .f32⟩
  | .hbm, ⟨88, _⟩ => ⟨S1x1x768, .f32⟩
  | .hbm, ⟨89, _⟩ => ⟨S16x2048x768, .f32⟩
  | .hbm, ⟨90, _⟩ => ⟨S16x2048x768, .f32⟩
  | .hbm, ⟨91, _⟩ => ⟨S16x2048x768, .f32⟩
  | .hbm, ⟨92, _⟩ => ⟨S_, .i32⟩
  | .hbm, ⟨93, _⟩ => ⟨S16x2048, .i32⟩
  | .hbm, ⟨94, _⟩ => ⟨S16x2048, .i1⟩
  | .hbm, ⟨95, _⟩ => ⟨S16x2048x1, .i1⟩
  | .hbm, ⟨96, _⟩ => ⟨S16x2048x1, .f32⟩
  | .hbm, ⟨97, _⟩ => ⟨S16x2048x768, .f32⟩
  | .hbm, ⟨98, _⟩ => ⟨S16x2048x768, .f32⟩
  | .hbm, ⟨99, _⟩ => ⟨S16x2048x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_cst : Ref sig .tc := ⟨.hbm, 44, rfl⟩
abbrev main_call1_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_2 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  bcast_S_S16x2048x768 : S_.BroadcastsInDim S16x2048x768 (![] : Fin 0 → Fin S16x2048x768.rank)
  bcast_S16_S1x1x16_2 : S16.BroadcastsInDim S1x1x16 (![2] : Fin 1 → Fin S1x1x16.rank)
  bcast_S1x1x16_S16x2048x16_0_1_2 : S1x1x16.BroadcastsInDim S16x2048x16 (![0, 1, 2] : Fin 3 → Fin S16x2048x16.rank)
  bcast_S_S16x2048x16 : S_.BroadcastsInDim S16x2048x16 (![] : Fin 0 → Fin S16x2048x16.rank)
  bcast_S768_S1x1x768_2 : S768.BroadcastsInDim S1x1x768 (![2] : Fin 1 → Fin S1x1x768.rank)
  bcast_S1x1x768_S16x2048x768_0_1_2 : S1x1x768.BroadcastsInDim S16x2048x768 (![0, 1, 2] : Fin 3 → Fin S16x2048x768.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x768_0_1_2 : S16x2048x1.BroadcastsInDim S16x2048x768 (![0, 1, 2] : Fin 3 → Fin S16x2048x768.rank)
  bcast_S32_S1x1x32_2 : S32.BroadcastsInDim S1x1x32 (![2] : Fin 1 → Fin S1x1x32.rank)
  bcast_S1x1x32_S16x2048x32_0_1_2 : S1x1x32.BroadcastsInDim S16x2048x32 (![0, 1, 2] : Fin 3 → Fin S16x2048x32.rank)
  bcast_S_S16x2048x32 : S_.BroadcastsInDim S16x2048x32 (![] : Fin 0 → Fin S16x2048x32.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x64 : S_.BroadcastsInDim S16x2048x64 (![] : Fin 0 → Fin S16x2048x64.rank)
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  bcast_S_S16x2048x128 : S_.BroadcastsInDim S16x2048x128 (![] : Fin 0 → Fin S16x2048x128.rank)
  dot_S16x2048x768_S768x16_S16x2048x16_2_0_01_1_n_n_wf : DotDims.WF S16x2048x768 S768x16 S16x2048x16 [2] [0] [0, 1] [1] [] []
  dot_S16x2048x16_S16x768_S16x2048x768_2_0_01_1_n_n_wf : DotDims.WF S16x2048x16 S16x768 S16x2048x768 [2] [0] [0, 1] [1] [] []
  dot_S16x2048x768_S768x32_S16x2048x32_2_0_01_1_n_n_wf : DotDims.WF S16x2048x768 S768x32 S16x2048x32 [2] [0] [0, 1] [1] [] []
  dot_S16x2048x32_S32x768_S16x2048x768_2_0_01_1_n_n_wf : DotDims.WF S16x2048x32 S32x768 S16x2048x768 [2] [0] [0, 1] [1] [] []
  dot_S16x2048x768_S768x64_S16x2048x64_2_0_01_1_n_n_wf : DotDims.WF S16x2048x768 S768x64 S16x2048x64 [2] [0] [0, 1] [1] [] []
  dot_S16x2048x64_S64x768_S16x2048x768_2_0_01_1_n_n_wf : DotDims.WF S16x2048x64 S64x768 S16x2048x768 [2] [0] [0, 1] [1] [] []
  dot_S16x2048x768_S768x128_S16x2048x128_2_0_01_1_n_n_wf : DotDims.WF S16x2048x768 S768x128 S16x2048x128 [2] [0] [0, 1] [1] [] []
  dot_S16x2048x128_S128x768_S16x2048x768_2_0_01_1_n_n_wf : DotDims.WF S16x2048x128 S128x768 S16x2048x768 [2] [0] [0, 1] [1] [] []

variable [Facts₀]

def dot_S16x2048x768_S768x16_S16x2048x16_2_0_01_1_n_n : DotDims S16x2048x768 S768x16 S16x2048x16 where
  lhsContracting := [2]
  rhsContracting := [0]
  lhsNonContracting := [0, 1]
  rhsNonContracting := [1]
  lhsBatch := []
  rhsBatch := []
  wf := dot_S16x2048x768_S768x16_S16x2048x16_2_0_01_1_n_n_wf
def dot_S16x2048x16_S16x768_S16x2048x768_2_0_01_1_n_n : DotDims S16x2048x16 S16x768 S16x2048x768 where
  lhsContracting := [2]
  rhsContracting := [0]
  lhsNonContracting := [0, 1]
  rhsNonContracting := [1]
  lhsBatch := []
  rhsBatch := []
  wf := dot_S16x2048x16_S16x768_S16x2048x768_2_0_01_1_n_n_wf
def dot_S16x2048x768_S768x32_S16x2048x32_2_0_01_1_n_n : DotDims S16x2048x768 S768x32 S16x2048x32 where
  lhsContracting := [2]
  rhsContracting := [0]
  lhsNonContracting := [0, 1]
  rhsNonContracting := [1]
  lhsBatch := []
  rhsBatch := []
  wf := dot_S16x2048x768_S768x32_S16x2048x32_2_0_01_1_n_n_wf
def dot_S16x2048x32_S32x768_S16x2048x768_2_0_01_1_n_n : DotDims S16x2048x32 S32x768 S16x2048x768 where
  lhsContracting := [2]
  rhsContracting := [0]
  lhsNonContracting := [0, 1]
  rhsNonContracting := [1]
  lhsBatch := []
  rhsBatch := []
  wf := dot_S16x2048x32_S32x768_S16x2048x768_2_0_01_1_n_n_wf
def dot_S16x2048x768_S768x64_S16x2048x64_2_0_01_1_n_n : DotDims S16x2048x768 S768x64 S16x2048x64 where
  lhsContracting := [2]
  rhsContracting := [0]
  lhsNonContracting := [0, 1]
  rhsNonContracting := [1]
  lhsBatch := []
  rhsBatch := []
  wf := dot_S16x2048x768_S768x64_S16x2048x64_2_0_01_1_n_n_wf
def dot_S16x2048x64_S64x768_S16x2048x768_2_0_01_1_n_n : DotDims S16x2048x64 S64x768 S16x2048x768 where
  lhsContracting := [2]
  rhsContracting := [0]
  lhsNonContracting := [0, 1]
  rhsNonContracting := [1]
  lhsBatch := []
  rhsBatch := []
  wf := dot_S16x2048x64_S64x768_S16x2048x768_2_0_01_1_n_n_wf
def dot_S16x2048x768_S768x128_S16x2048x128_2_0_01_1_n_n : DotDims S16x2048x768 S768x128 S16x2048x128 where
  lhsContracting := [2]
  rhsContracting := [0]
  lhsNonContracting := [0, 1]
  rhsNonContracting := [1]
  lhsBatch := []
  rhsBatch := []
  wf := dot_S16x2048x768_S768x128_S16x2048x128_2_0_01_1_n_n_wf
def dot_S16x2048x128_S128x768_S16x2048x768_2_0_01_1_n_n : DotDims S16x2048x128 S128x768 S16x2048x768 where
  lhsContracting := [2]
  rhsContracting := [0]
  lhsNonContracting := [0, 1]
  rhsNonContracting := [1]
  lhsBatch := []
  rhsBatch := []
  wf := dot_S16x2048x128_S128x768_S16x2048x768_2_0_01_1_n_n_wf

class Facts : Prop extends Facts₀ where

variable [Facts]
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.LibExpert.lean ====
/-
  One gated low-rank expert, read at an entry.

  A token's row x (width D) is projected down to K hidden units by Wd (plus the bias bd), passed through max(·, 0),
  projected back up by Wu (plus the bias bu), added to the row itself, and multiplied by a selector:

      expertAt x Wd bd Wu bu sel c  =  ((Σ_k max((Σ_j x_j · Wd_jk) + bd_k, 0) · Wu_kc) + bu_c + x_c) · sel .

  A kernel computes this on a block of R rows: two matrix products into zero accumulators, each bias held as a one-row
  matrix and broadcast down the rows, and the selector held as a column (one entry per row) and broadcast along the
  rows, where the selector is the bit "the row's label equals e" widened to a word and converted as a signed integer.
  Read at entry (r, c) of the block, that spelling is `expertAt` of row r with the bit converted directly. Nothing of
  arithmetic is used beyond 0 + s = s inside the two products, so the statement holds at the infinities too.
  Stated for any R, D and K.
-/
import Idealize.ShloMosaic.Lib.StackMember
import Idealize.ShloMosaic.Lib.KernelVsHost
import Idealize.ShloMosaic.Lib.ValueLayout
import proofs.«136440_j26680336842992_1_alg».proof.Proof.LibLayout

noncomputable section

namespace Cert.Moe

open Idealize.ShloMosaic Idealize.ShloMosaic.ValueIdx
open scoped BigOperators

/-- The float zero word read at the ideal values (it is the number 0; nothing here needs to know that). -/
abbrev zeroWord : EReal := Ideal.ofBits .f32 0x00000000#32

/-- One expert's contribution to entry `c` of a token's output row: down-projection of the row `x` with bias, the
    positive part, up-projection with bias, the row added back, times the selector. -/
def expertAt {D K : ℕ} (x : Fin D → EReal) (wd : Fin D → Fin K → EReal) (bd : Fin K → EReal)
    (wu : Fin K → Fin D → EReal) (bu : Fin D → EReal) (sel : EReal) (c : Fin D) : EReal :=
  ((∑ k : Fin K, max ((∑ j : Fin D, x j * wd j k) + bd k) zeroWord * wu k c) + bu c + x c) * sel

/-- The selector of expert `e` for a token labelled `l`: the bit `l = e` as a number (1 or 0). -/
def selector (l e : BitVec 32) : EReal := FloatOps.uitofp (F := Ideal) .f32 (IntOp.cmpi .eq l e)

variable {R D K : ℕ}

/-- A product of an R×D block by a D×K matrix into the zero accumulator, read at (r, k): the sum over the
    contracted coordinate. -/
theorem matmul_plain_zero_apply {m k n : ℕ} (A : FVec Ideal ⟨2, ![m, k]⟩ .f32) (B : FVec Ideal ⟨2, ![k, n]⟩ .f32)
    (a : Fin m) (b : Fin n) :
    matmul (DotDims.plain m k n) none A B (constant ⟨2, ![m, n]⟩ .f32 0x00000000#32) (ix2 a b)
      = ∑ c : Fin k, A (ix2 a c) * B (ix2 c b) := by
  rw [matmul_zero_eq_dotGeneral]
  exact StackMember.dotGeneral_plain_apply none A B a b

/-- The block spelling of one expert, read at entry (r, c), is `expertAt` of row r. -/
theorem blockExpert_apply
    (x : FVec Ideal ⟨2, ![R, D]⟩ .f32) (lab : IVec ⟨2, ![R, 1]⟩ 32)
    (Wd : FVec Ideal ⟨2, ![D, K]⟩ .f32) (bd : FVec Ideal ⟨2, ![1, K]⟩ .f32)
    (Wu : FVec Ideal ⟨2, ![K, D]⟩ .f32) (bu : FVec Ideal ⟨2, ![1, D]⟩ .f32) (e : BitVec 32)
    (d1 : DotDims ⟨2, ![R, D]⟩ ⟨2, ![D, K]⟩ ⟨2, ![R, K]⟩) (hd1 : d1 = DotDims.plain R D K)
    (d2 : DotDims ⟨2, ![R, K]⟩ ⟨2, ![K, D]⟩ ⟨2, ![R, D]⟩) (hd2 : d2 = DotDims.plain R K D)
    (hb1 : (⟨2, ![1, K]⟩ : Shape).Broadcasts ⟨2, ![R, K]⟩)
    (hb2 : (⟨2, ![1, D]⟩ : Shape).Broadcasts ⟨2, ![R, D]⟩)
    (hb3 : (⟨2, ![R, 1]⟩ : Shape).Broadcasts ⟨2, ![R, D]⟩)
    (h32 : 1 < 32) (r : Fin R) (c : Fin D) :
    mulf
        (addf
          (addf
            (matmul d2 none
              (maximumf
                (addf (matmul d1 none x Wd (constant ⟨2, ![R, K]⟩ .f32 0x00000000#32)) (broadcastTo ⟨2, ![R, K]⟩ bd hb1))
                (broadcast ⟨2, ![R, K]⟩ (Scalar.ofBits (F := Ideal) .f32 0x00000000#32)))
              Wu (constant ⟨2, ![R, D]⟩ .f32 0x00000000#32))
            (broadcastTo ⟨2, ![R, D]⟩ bu hb2))
          x)
        (broadcastTo ⟨2, ![R, D]⟩ (sitofp .f32 (extui 32 (cmpi .eq lab (broadcast ⟨2, ![R, 1]⟩ e)) h32)) hb3)
        (ix2 r c)
      = expertAt (fun j => x (ix2 r j)) (fun j k => Wd (ix2 j k)) (fun k => bd (ix2 (0 : Fin 1) k))
          (fun k j => Wu (ix2 k j)) (fun j => bu (ix2 (0 : Fin 1) j)) (selector (lab (ix2 r (0 : Fin 1))) e) c := by
  subst hd1 hd2
  rw [mulf_apply, addf_apply, addf_apply, matmul_plain_zero_apply, broadcastTo_1b_ab_apply,
    Cert.Bridge.Layout.broadcastTo_a1_an_apply, sitofp_extui_eq_uitofp]
  unfold expertAt selector
  refine congrArg₂ (· * ·) (congrArg₂ (· + ·) (congrArg₂ (· + ·) (Finset.sum_congr rfl fun k _ => ?_) rfl) rfl) rfl
  rw [maximumf_apply, addf_apply, matmul_plain_zero_apply, broadcastTo_1b_ab_apply]
  rfl

end Cert.Moe

end
-- ==== Proof.KernelBlock.lean ====
/-
  What the kernel body leaves in the output block, read at an entry.

  The body loads the block of 2048 token rows, the 2048 labels of those rows as a column, and each expert's two
  matrices and two one-row biases whole; it stores ONE value over the whole output block: the zero splat plus the four
  experts' contributions, added in order. Read at entry (r, c) of the block, each contribution is `expertAt` of row r
  (the general statement about one expert's block spelling), so the stored value is the sum below.
-/
import proofs.«136440_j26680336842992_1_alg».proof.Proof.Gen.KernelIdeal.Frame
import proofs.«136440_j26680336842992_1_alg».proof.Proof.LibExpert

set_option maxRecDepth 16384

noncomputable section

namespace Cert.Moe.Kernel

open Cert.KernelIdeal Cert.KernelIdeal.Gen Idealize.ShloMosaic Idealize.ShloMosaic.ValueIdx Cert.Moe

theorem zeros2 : (![0, 0] : Fin 2 → Nat) = fun _ => 0 := funext fun a => by fin_cases a <;> rfl

/-- The four printed products' dimension records are the plain row-by-column product's. -/
theorem dotDown16 : dot_S2048x768_S768x16_S2048x16_1_0_0_1_n_n = DotDims.plain 2048 768 16 := rfl
theorem dotUp16 : dot_S2048x16_S16x768_S2048x768_1_0_0_1_n_n = DotDims.plain 2048 16 768 := rfl
theorem dotDown32 : dot_S2048x768_S768x32_S2048x32_1_0_0_1_n_n = DotDims.plain 2048 768 32 := rfl
theorem dotUp32 : dot_S2048x32_S32x768_S2048x768_1_0_0_1_n_n = DotDims.plain 2048 32 768 := rfl
theorem dotDown64 : dot_S2048x768_S768x64_S2048x64_1_0_0_1_n_n = DotDims.plain 2048 768 64 := rfl
theorem dotUp64 : dot_S2048x64_S64x768_S2048x768_1_0_0_1_n_n = DotDims.plain 2048 64 768 := rfl
theorem dotDown128 : dot_S2048x768_S768x128_S2048x128_1_0_0_1_n_n = DotDims.plain 2048 768 128 := rfl
theorem dotUp128 : dot_S2048x128_S128x768_S2048x768_1_0_0_1_n_n = DotDims.plain 2048 128 768 := rfl

/-- One expert's contribution to entry (r, c) of the block, from the loaded blocks. -/
def rowExpert {K : ℕ} (xb : FVec Ideal ⟨2, ![2048, 768]⟩ .f32) (lb : IVec ⟨2, ![2048, 1]⟩ 32)
    (Wd : FVec Ideal ⟨2, ![768, K]⟩ .f32) (bd : FVec Ideal ⟨2, ![1, K]⟩ .f32)
    (Wu : FVec Ideal ⟨2, ![K, 768]⟩ .f32) (bu : FVec Ideal ⟨2, ![1, 768]⟩ .f32) (e : BitVec 32)
    (r : Fin 2048) (c : Fin 768) : EReal :=
  expertAt (fun j => xb (ix2 r j)) (fun j k => Wd (ix2 j k)) (fun k => bd (ix2 (0 : Fin 1) k))
    (fun k j => Wu (ix2 k j)) (fun j => bu (ix2 (0 : Fin 1) j)) (selector (lb (ix2 r (0 : Fin 1))) e) c

/-- The output block after the body, at entry (r, c): the zero word plus the four experts' contributions of row r. -/
theorem out_apply (x0 : Vec Ideal S2048x768 .f32) (x1 : Vec Ideal S2048x1 .i32)
    (x2 : Vec Ideal S768x16 .f32) (x3 : Vec Ideal S1x16 .f32) (x4 : Vec Ideal S16x768 .f32) (x5 : Vec Ideal S1x768 .f32)
    (x6 : Vec Ideal S768x32 .f32) (x7 : Vec Ideal S1x32 .f32) (x8 : Vec Ideal S32x768 .f32) (x9 : Vec Ideal S1x768 .f32)
    (x10 : Vec Ideal S768x64 .f32) (x11 : Vec Ideal S1x64 .f32) (x12 : Vec Ideal S64x768 .f32) (x13 : Vec Ideal S1x768 .f32)
    (x14 : Vec Ideal S768x128 .f32) (x15 : Vec Ideal S1x128 .f32) (x16 : Vec Ideal S128x768 .f32) (x17 : Vec Ideal S1x768 .f32)
    (r : Fin 2048) (c : Fin 768) :
    out0_18 (F := Ideal) x0 x1 x2 x3 x4 x5 x6 x7 x8 x9 x10 x11 x12 x13 x14 x15 x16 x17 (ix2 r c)
      = (((zeroWord + rowExpert x0 x1 x2 x3 x4 x5 0#32 r c) + rowExpert x0 x1 x6 x7 x8 x9 1#32 r c)
          + rowExpert x0 x1 x10 x11 x12 x13 2#32 r c)
        + rowExpert x0 x1 x14 x15 x16 x17 3#32 r c := by
  unfold out0_18
  rw [View.canon_unit_zero zeros2]
  simp only [View.ld_unit_zero (S := S2048x768) zeros2, View.ld_unit_zero (S := S2048x1) zeros2,
    View.ld_unit_zero (S := S768x16) zeros2, View.ld_unit_zero (S := S1x16) zeros2,
    View.ld_unit_zero (S := S16x768) zeros2, View.ld_unit_zero (S := S1x768) zeros2,
    View.ld_unit_zero (S := S768x32) zeros2, View.ld_unit_zero (S := S1x32) zeros2,
    View.ld_unit_zero (S := S32x768) zeros2, View.ld_unit_zero (S := S768x64) zeros2,
    View.ld_unit_zero (S := S1x64) zeros2, View.ld_unit_zero (S := S64x768) zeros2,
    View.ld_unit_zero (S := S768x128) zeros2, View.ld_unit_zero (S := S1x128) zeros2,
    View.ld_unit_zero (S := S128x768) zeros2]
  unfold k0_pay1 k0_pay7 k0_pay4 k0_pay2 k0_pay3 k0_pay5 k0_pay6 k0_pay8
  simp only [shapeCast_self]
  refine congrArg₂ (· + ·) (congrArg₂ (· + ·) (congrArg₂ (· + ·) (congrArg₂ (· + ·) rfl ?_) ?_) ?_) ?_
  · exact blockExpert_apply (R := 2048) (D := 768) (K := 16) x0 x1 x2 x3 x4 x5 0#32 _ dotDown16 _ dotUp16 _ _ _ _ r c
  · exact blockExpert_apply (R := 2048) (D := 768) (K := 32) x0 x1 x6 x7 x8 x9 1#32 _ dotDown32 _ dotUp32 _ _ _ _ r c
  · exact blockExpert_apply (R := 2048) (D := 768) (K := 64) x0 x1 x10 x11 x12 x13 2#32 _ dotDown64 _ dotUp64 _ _ _ _ r c
  · exact blockExpert_apply (R := 2048) (D := 768) (K := 128) x0 x1 x14 x15 x16 x17 3#32 _ dotDown128 _ dotUp128 _ _ _ _ r c

end Cert.Moe.Kernel

end
-- ==== Proof.MoeSpec.lean ====
/-
  The layer as one function of its eighteen argument arrays.

  For token (b, s) and output entry c, with x the activations [16, 2048, 768], lab the tokens' labels [16, 2048] and,
  for expert n = 0, 1, 2, 3 of hidden width 16, 32, 64, 128, the matrices Wd_n [768, K_n], Wu_n [K_n, 768] and the
  biases bd_n [K_n], bu_n [768]:

      out(b, s, c) = (((0 + E_0) + E_1) + E_2) + E_3,
      E_n = ((Σ_k max((Σ_j x(b,s,j) · Wd_n(j,k)) + bd_n(k), 0) · Wu_n(k,c)) + bu_n(c) + x(b,s,c)) · [lab(b,s) = n],

  the sum accumulated from the zero word in this order, which is the order both programs use.
-/
import proofs.«136440_j26680336842992_1_alg».proof.Proof.LibExpert

noncomputable section

namespace Cert.Moe

open Idealize.ShloMosaic Idealize.ShloMosaic.ValueIdx

/-- Expert `e`'s contribution for token (b, s) at entry c, from the whole arrays. -/
def tokenExpert {K : ℕ} (x : FVec Ideal ⟨3, ![16, 2048, 768]⟩ .f32) (lab : IVec ⟨2, ![16, 2048]⟩ 32)
    (Wd : FVec Ideal ⟨2, ![768, K]⟩ .f32) (bd : FVec Ideal ⟨1, ![K]⟩ .f32)
    (Wu : FVec Ideal ⟨2, ![K, 768]⟩ .f32) (bu : FVec Ideal ⟨1, ![768]⟩ .f32) (e : BitVec 32)
    (b : Fin 16) (s : Fin 2048) (c : Fin 768) : EReal :=
  expertAt (fun j => x (ix3 b s j)) (fun j k => Wd (ix2 j k)) (fun k => bd (ix1 k)) (fun k j => Wu (ix2 k j))
    (fun j => bu (ix1 j)) (selector (lab (ix2 b s)) e) c

/-- The layer's output for token (b, s) at entry c. -/
def moeAt (x : FVec Ideal ⟨3, ![16, 2048, 768]⟩ .f32) (lab : IVec ⟨2, ![16, 2048]⟩ 32)
    (Wd0 : FVec Ideal ⟨2, ![768, 16]⟩ .f32) (bd0 : FVec Ideal ⟨1, ![16]⟩ .f32)
    (Wu0 : FVec Ideal ⟨2, ![16, 768]⟩ .f32) (bu0 : FVec Ideal ⟨1, ![768]⟩ .f32)
    (Wd1 : FVec Ideal ⟨2, ![768, 32]⟩ .f32) (bd1 : FVec Ideal ⟨1, ![32]⟩ .f32)
    (Wu1 : FVec Ideal ⟨2, ![32, 768]⟩ .f32) (bu1 : FVec Ideal ⟨1, ![768]⟩ .f32)
    (Wd2 : FVec Ideal ⟨2, ![768, 64]⟩ .f32) (bd2 : FVec Ideal ⟨1, ![64]⟩ .f32)
    (Wu2 : FVec Ideal ⟨2, ![64, 768]⟩ .f32) (bu2 : FVec Ideal ⟨1, ![768]⟩ .f32)
    (Wd3 : FVec Ideal ⟨2, ![768, 128]⟩ .f32) (bd3 : FVec Ideal ⟨1, ![128]⟩ .f32)
    (Wu3 : FVec Ideal ⟨2, ![128, 768]⟩ .f32) (bu3 : FVec Ideal ⟨1, ![768]⟩ .f32)
    (b : Fin 16) (s : Fin 2048) (c : Fin 768) : EReal :=
  (((zeroWord + tokenExpert x lab Wd0 bd0 Wu0 bu0 0#32 b s c) + tokenExpert x lab Wd1 bd1 Wu1 bu1 1#32 b s c)
      + tokenExpert x lab Wd2 bd2 Wu2 bu2 2#32 b s c)
    + tokenExpert x lab Wd3 bd3 Wu3 bu3 3#32 b s c

/-- The layer's output array. -/
def moe (x : FVec Ideal ⟨3, ![16, 2048, 768]⟩ .f32) (lab : IVec ⟨2, ![16, 2048]⟩ 32)
    (Wd0 : FVec Ideal ⟨2, ![768, 16]⟩ .f32) (bd0 : FVec Ideal ⟨1, ![16]⟩ .f32)
    (Wu0 : FVec Ideal ⟨2, ![16, 768]⟩ .f32) (bu0 : FVec Ideal ⟨1, ![768]⟩ .f32)
    (Wd1 : FVec Ideal ⟨2, ![768, 32]⟩ .f32) (bd1 : FVec Ideal ⟨1, ![32]⟩ .f32)
    (Wu1 : FVec Ideal ⟨2, ![32, 768]⟩ .f32) (bu1 : FVec Ideal ⟨1, ![768]⟩ .f32)
    (Wd2 : FVec Ideal ⟨2, ![768, 64]⟩ .f32) (bd2 : FVec Ideal ⟨1, ![64]⟩ .f32)
    (Wu2 : FVec Ideal ⟨2, ![64, 768]⟩ .f32) (bu2 : FVec Ideal ⟨1, ![768]⟩ .f32)
    (Wd3 : FVec Ideal ⟨2, ![768, 128]⟩ .f32) (bd3 : FVec Ideal ⟨1, ![128]⟩ .f32)
    (Wu3 : FVec Ideal ⟨2, ![128, 768]⟩ .f32) (bu3 : FVec Ideal ⟨1, ![768]⟩ .f32) :
    FVec Ideal ⟨3, ![16, 2048, 768]⟩ .f32 :=
  fun i => moeAt x lab Wd0 bd0 Wu0 bu0 Wd1 bd1 Wu1 bu1 Wd2 bd2 Wu2 bu2 Wd3 bd3 Wu3 bu3 (i 0) (i 1) (i 2)

end Cert.Moe

end
-- ==== Proof.KernelValue.lean ====
/-
  From the kernel's blocks to its result array.

  The host reshapes the activations [16, 2048, 768] to [32768, 768], the labels [16, 2048] to a column [32768, 1] and
  each bias [K] to one row [1, K]; the region runs over 16 grid points, point t taking rows 2048·t … 2048·t + 2047 of
  the activations and of the labels and the whole of every weight and bias; it writes rows 2048·t … of a [32768, 768]
  array, which the host reshapes back to [16, 2048, 768]. Row 2048·t + r of the flat arrays is token (t, r), so point
  t's block of the output is the layer's output for batch t; the 16 blocks tile the flat array; and flattening then
  unflattening is the identity.
-/
import proofs.«136440_j26680336842992_1_alg».proof.Proof.Gen.KernelIdeal.Frame
import proofs.«136440_j26680336842992_1_alg».proof.Proof.KernelBlock
import proofs.«136440_j26680336842992_1_alg».proof.Proof.MoeSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Moe.Kernel

open Cert.KernelIdeal Cert.KernelIdeal.Gen Idealize.ShloMosaic.ValueIdx Cert.Moe

variable (m : (ℓ : Loc nD τ sig) → Buf (Elt Ideal) ℓ) (ρ : Dev nD → PrngReg)

/-! ## The arrays the region finds: each reshape of an argument -/

theorem V_flatX (c : Dev nD) : (V m c main_v0 : S32768x768.Idx → EReal)
    = shapeCast S32768x768 (m ((c : Thread nD τ).loc main_arg0)) shapeCasts_S16x2048x768_S32768x768 := by
  show StableHlo.after hostOps0 (fun b => m (c, b)) (Proc.devRef .tc main_v0) = _
  after_results
  rfl

theorem V_flatLab (c : Dev nD) : (V m c main_v1 : S32768x1.Idx → BitVec 32)
    = shapeCast S32768x1 (m ((c : Thread nD τ).loc main_arg1)) shapeCasts_S16x2048_S32768x1 := by
  show StableHlo.after hostOps0 (fun b => m (c, b)) (Proc.devRef .tc main_v1) = _
  after_results
  rfl

theorem V_rowBd0 (c : Dev nD) : (V m c main_v2 : S1x16.Idx → EReal)
    = shapeCast S1x16 (m ((c : Thread nD τ).loc main_arg3)) shapeCasts_S16_S1x16 := by
  show StableHlo.after hostOps0 (fun b => m (c, b)) (Proc.devRef .tc main_v2) = _
  after_results
  rfl

theorem V_rowBd1 (c : Dev nD) : (V m c main_v3 : S1x32.Idx → EReal)
    = shapeCast S1x32 (m ((c : Thread nD τ).loc main_arg7)) shapeCasts_S32_S1x32 := by
  show StableHlo.after hostOps0 (fun b => m (c, b)) (Proc.devRef .tc main_v3) = _
  after_results
  rfl

theorem V_rowBd2 (c : Dev nD) : (V m c main_v4 : S1x64.Idx → EReal)
    = shapeCast S1x64 (m ((c : Thread nD τ).loc main_arg11)) shapeCasts_S64_S1x64 := by
  show StableHlo.after hostOps0 (fun b => m (c, b)) (Proc.devRef .tc main_v4) = _
  after_results
  rfl

theorem V_rowBd3 (c : Dev nD) : (V m c main_v5 : S1x128.Idx → EReal)
    = shapeCast S1x128 (m ((c : Thread nD τ).loc main_arg15)) shapeCasts_S128_S1x128 := by
  show StableHlo.after hostOps0 (fun b => m (c, b)) (Proc.devRef .tc main_v5) = _
  after_results
  rfl

theorem V_rowBu0 (c : Dev nD) : (V m c main_v6 : S1x768.Idx → EReal)
    = shapeCast S1x768 (m ((c : Thread nD τ).loc main_arg5)) shapeCasts_S768_S1x768 := by
  show StableHlo.after hostOps0 (fun b => m (c, b)) (Proc.devRef .tc main_v6) = _
  after_results
  rfl

theorem V_rowBu1 (c : Dev nD) : (V m c main_v7 : S1x768.Idx → EReal)
    = shapeCast S1x768 (m ((c : Thread nD τ).loc main_arg9)) shapeCasts_S768_S1x768 := by
  show StableHlo.after hostOps0 (fun b => m (c, b)) (Proc.devRef .tc main_v7) = _
  after_results
  rfl

theorem V_rowBu2 (c : Dev nD) : (V m c main_v8 : S1x768.Idx → EReal)
    = shapeCast S1x768 (m ((c : Thread nD τ).loc main_arg13)) shapeCasts_S768_S1x768 := by
  show StableHlo.after hostOps0 (fun b => m (c, b)) (Proc.devRef .tc main_v8) = _
  after_results
  rfl

theorem V_rowBu3 (c : Dev nD) : (V m c main_v9 : S1x768.Idx → EReal)
    = shapeCast S1x768 (m ((c : Thread nD τ).loc main_arg17)) shapeCasts_S768_S1x768 := by
  show StableHlo.after hostOps0 (fun b => m (c, b)) (Proc.devRef .tc main_v9) = _
  after_results
  rfl

/-! ## The index maps, decided over the sixteen points -/

/-- The activations', the labels' and the output's blocks move with the point along the rows; their second block index is 0. -/
theorem idx_tiles : ∀ t : Fin cfg0.N, win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-- Every weight's and every bias's block is block (0, 0) at every point. -/
theorem idx_wholes : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0)
    ∧ (win0_14.index t (0 : Fin 2) = 0 ∧ win0_14.index t (1 : Fin 2) = 0) ∧ (win0_15.index t (0 : Fin 2) = 0 ∧ win0_15.index t (1 : Fin 2) = 0)
    ∧ (win0_16.index t (0 : Fin 2) = 0 ∧ win0_16.index t (1 : Fin 2) = 0) ∧ (win0_17.index t (0 : Fin 2) = 0 ∧ win0_17.index t (1 : Fin 2) = 0) :=
  (by decide +kernel : ∀ t : Fin grid0.N, _)

/-- Point `t` is batch `t`. -/
abbrev batch (t : Fin cfg0.N) : Fin 16 := ⟨t.val, by have h := t.isLt; have hN : cfg0.N = 16 := N_0; omega⟩

/-! ## Each window's block at a point, read at coordinates -/

/-- Row r of point t's block of the activations is token (t, r). -/
theorem xBlock_apply (c : Dev nD) (t : Fin cfg0.N) (r : Fin 2048) (j : Fin 768) :
    (iblk m c 0 t : Vec Ideal S2048x768 .f32) (ix2 r j)
      = (m ((c : Thread nD τ).loc main_arg0) : S16x2048x768.Idx → EReal) (ix3 (batch t) r j) := by
  obtain ⟨h0, h1, -⟩ := idx_tiles t
  unfold iblk
  rw [View.read_apply]
  show V m c main_v0 _ = _
  refine (congrFun (V_flatX m c) _).trans ?_
  refine shapeCast_apply (s := S16x2048x768) (t := S32768x768) _ _ _ _ ?_
  rw [Shape.rowMajor_val_three, Shape.rowMajor_val_two]
  show (t.val * 2048 + r.val) * 768 + j.val
    = (win0_0.index t (0 : Fin 2) * 2048 + 1 * r.val) * 768 + (win0_0.index t (1 : Fin 2) * 768 + 1 * j.val)
  rw [h0, h1]; omega

/-- Entry r of point t's block of the label column is token (t, r)'s label. -/
theorem labBlock_apply (c : Dev nD) (t : Fin cfg0.N) (r : Fin 2048) :
    (iblk m c 1 t : IVec S2048x1 32) (ix2 r (0 : Fin 1))
      = (m ((c : Thread nD τ).loc main_arg1) : S16x2048.Idx → BitVec 32) (ix2 (batch t) r) := by
  obtain ⟨-, -, h0, h1, -⟩ := idx_tiles t
  unfold iblk
  rw [View.read_apply]
  show V m c main_v1 _ = _
  refine (congrFun (V_flatLab m c) _).trans ?_
  refine shapeCast_apply (s := S16x2048) (t := S32768x1) _ _ _ _ ?_
  rw [Shape.rowMajor_val_two, Shape.rowMajor_val_two]
  show t.val * 2048 + r.val
    = (win0_1.index t (0 : Fin 2) * 2048 + 1 * r.val) * 1 + (win0_1.index t (1 : Fin 2) * 1 + 1 * 0)
  rw [h0, h1]; omega

/-- A weight's one block is the whole weight, at every point. -/
theorem wd0Block (c : Dev nD) (t : Fin cfg0.N) :
    (iblk m c 2 t : Vec Ideal S768x16 .f32) = (m ((c : Thread nD τ).loc main_arg2) : S768x16.Idx → EReal) := by
  obtain ⟨w2, w3, w4, w5, w6, w7, w8, w9, w10, w11, w12, w13, w14, w15, w16, w17⟩ := idx_wholes t
  funext y
  unfold iblk
  rw [View.read_apply]
  show V m c main_arg2 _ = _
  refine (congrFun (V_main_arg2 m c) _).trans (congrArg _ (funext fun a => Fin.ext ?_))
  match a with
  | ⟨0, _⟩ => show win0_2.index t (0 : Fin 2) * 768 + 1 * (y 0).val = (y 0).val; rw [w2.1]; omega
  | ⟨1, _⟩ => show win0_2.index t (1 : Fin 2) * 16 + 1 * (y 1).val = (y 1).val; rw [w2.2]; omega

theorem wu0Block (c : Dev nD) (t : Fin cfg0.N) :
    (iblk m c 4 t : Vec Ideal S16x768 .f32) = (m ((c : Thread nD τ).loc main_arg4) : S16x768.Idx → EReal) := by
  obtain ⟨w2, w3, w4, w5, w6, w7, w8, w9, w10, w11, w12, w13, w14, w15, w16, w17⟩ := idx_wholes t
  funext y
  unfold iblk
  rw [View.read_apply]
  show V m c main_arg4 _ = _
  refine (congrFun (V_main_arg4 m c) _).trans (congrArg _ (funext fun a => Fin.ext ?_))
  match a with
  | ⟨0, _⟩ => show win0_4.index t (0 : Fin 2) * 16 + 1 * (y 0).val = (y 0).val; rw [w4.1]; omega
  | ⟨1, _⟩ => show win0_4.index t (1 : Fin 2) * 768 + 1 * (y 1).val = (y 1).val; rw [w4.2]; omega

theorem wd1Block (c : Dev nD) (t : Fin cfg0.N) :
    (iblk m c 6 t : Vec Ideal S768x32 .f32) = (m ((c : Thread nD τ).loc main_arg6) : S768x32.Idx → EReal) := by
  obtain ⟨w2, w3, w4, w5, w6, w7, w8, w9, w10, w11, w12, w13, w14, w15, w16, w17⟩ := idx_wholes t
  funext y
  unfold iblk
  rw [View.read_apply]
  show V m c main_arg6 _ = _
  refine (congrFun (V_main_arg6 m c) _).trans (congrArg _ (funext fun a => Fin.ext ?_))
  match a with
  | ⟨0, _⟩ => show win0_6.index t (0 : Fin 2) * 768 + 1 * (y 0).val = (y 0).val; rw [w6.1]; omega
  | ⟨1, _⟩ => show win0_6.index t (1 : Fin 2) * 32 + 1 * (y 1).val = (y 1).val; rw [w6.2]; omega

theorem wu1Block (c : Dev nD) (t : Fin cfg0.N) :
    (iblk m c 8 t : Vec Ideal S32x768 .f32) = (m ((c : Thread nD τ).loc main_arg8) : S32x768.Idx → EReal) := by
  obtain ⟨w2, w3, w4, w5, w6, w7, w8, w9, w10, w11, w12, w13, w14, w15, w16, w17⟩ := idx_wholes t
  funext y
  unfold iblk
  rw [View.read_apply]
  show V m c main_arg8 _ = _
  refine (congrFun (V_main_arg8 m c) _).trans (congrArg _ (funext fun a => Fin.ext ?_))
  match a with
  | ⟨0, _⟩ => show win0_8.index t (0 : Fin 2) * 32 + 1 * (y 0).val = (y 0).val; rw [w8.1]; omega
  | ⟨1, _⟩ => show win0_8.index t (1 : Fin 2) * 768 + 1 * (y 1).val = (y 1).val; rw [w8.2]; omega

theorem wd2Block (c : Dev nD) (t : Fin cfg0.N) :
    (iblk m c 10 t : Vec Ideal S768x64 .f32) = (m ((c : Thread nD τ).loc main_arg10) : S768x64.Idx → EReal) := by
  obtain ⟨w2, w3, w4, w5, w6, w7, w8, w9, w10, w11, w12, w13, w14, w15, w16, w17⟩ := idx_wholes t
  funext y
  unfold iblk
  rw [View.read_apply]
  show V m c main_arg10 _ = _
  refine (congrFun (V_main_arg10 m c) _).trans (congrArg _ (funext fun a => Fin.ext ?_))
  match a with
  | ⟨0, _⟩ => show win0_10.index t (0 : Fin 2) * 768 + 1 * (y 0).val = (y 0).val; rw [w10.1]; omega
  | ⟨1, _⟩ => show win0_10.index t (1 : Fin 2) * 64 + 1 * (y 1).val = (y 1).val; rw [w10.2]; omega

theorem wu2Block (c : Dev nD) (t : Fin cfg0.N) :
    (iblk m c 12 t : Vec Ideal S64x768 .f32) = (m ((c : Thread nD τ).loc main_arg12) : S64x768.Idx → EReal) := by
  obtain ⟨w2, w3, w4, w5, w6, w7, w8, w9, w10, w11, w12, w13, w14, w15, w16, w17⟩ := idx_wholes t
  funext y
  unfold iblk
  rw [View.read_apply]
  show V m c main_arg12 _ = _
  refine (congrFun (V_main_arg12 m c) _).trans (congrArg _ (funext fun a => Fin.ext ?_))
  match a with
  | ⟨0, _⟩ => show win0_12.index t (0 : Fin 2) * 64 + 1 * (y 0).val = (y 0).val; rw [w12.1]; omega
  | ⟨1, _⟩ => show win0_12.index t (1 : Fin 2) * 768 + 1 * (y 1).val = (y 1).val; rw [w12.2]; omega

theorem wd3Block (c : Dev nD) (t : Fin cfg0.N) :
    (iblk m c 14 t : Vec Ideal S768x128 .f32) = (m ((c : Thread nD τ).loc main_arg14) : S768x128.Idx → EReal) := by
  obtain ⟨w2, w3, w4, w5, w6, w7, w8, w9, w10, w11, w12, w13, w14, w15, w16, w17⟩ := idx_wholes t
  funext y
  unfold iblk
  rw [View.read_apply]
  show V m c main_arg14 _ = _
  refine (congrFun (V_main_arg14 m c) _).trans (congrArg _ (funext fun a => Fin.ext ?_))
  match a with
  | ⟨0, _⟩ => show win0_14.index t (0 : Fin 2) * 768 + 1 * (y 0).val = (y 0).val; rw [w14.1]; omega
  | ⟨1, _⟩ => show win0_14.index t (1 : Fin 2) * 128 + 1 * (y 1).val = (y 1).val; rw [w14.2]; omega

theorem wu3Block (c : Dev nD) (t : Fin cfg0.N) :
    (iblk m c 16 t : Vec Ideal S128x768 .f32) = (m ((c : Thread nD τ).loc main_arg16) : S128x768.Idx → EReal) := by
  obtain ⟨w2, w3, w4, w5, w6, w7, w8, w9, w10, w11, w12, w13, w14, w15, w16, w17⟩ := idx_wholes t
  funext y
  unfold iblk
  rw [View.read_apply]
  show V m c main_arg16 _ = _
  refine (congrFun (V_main_arg16 m c) _).trans (congrArg _ (funext fun a => Fin.ext ?_))
  match a with
  | ⟨0, _⟩ => show win0_16.index t (0 : Fin 2) * 128 + 1 * (y 0).val = (y 0).val; rw [w16.1]; omega
  | ⟨1, _⟩ => show win0_16.index t (1 : Fin 2) * 768 + 1 * (y 1).val = (y 1).val; rw [w16.2]; omega

/-- Entry k of a bias's one-row block is entry k of the bias, at every point. -/
theorem bd0Block_apply (c : Dev nD) (t : Fin cfg0.N) (k : Fin 16) :
    (iblk m c 3 t : Vec Ideal S1x16 .f32) (ix2 (0 : Fin 1) k) = (m ((c : Thread nD τ).loc main_arg3) : S16.Idx → EReal) (ix1 k) := by
  obtain ⟨w2, w3, w4, w5, w6, w7, w8, w9, w10, w11, w12, w13, w14, w15, w16, w17⟩ := idx_wholes t
  unfold iblk
  rw [View.read_apply]
  show V m c main_v2 _ = _
  refine (congrFun (V_rowBd0 m c) _).trans ?_
  refine shapeCast_apply (s := S16) (t := S1x16) _ _ _ _ ?_
  rw [Shape.rowMajor_val_one, Shape.rowMajor_val_two]
  show k.val = (win0_3.index t (0 : Fin 2) * 1 + 1 * 0) * 16 + (win0_3.index t (1 : Fin 2) * 16 + 1 * k.val)
  rw [w3.1, w3.2]; omega

theorem bu0Block_apply (c : Dev nD) (t : Fin cfg0.N) (k : Fin 768) :
    (iblk m c 5 t : Vec Ideal S1x768 .f32) (ix2 (0 : Fin 1) k) = (m ((c : Thread nD τ).loc main_arg5) : S768.Idx → EReal) (ix1 k) := by
  obtain ⟨w2, w3, w4, w5, w6, w7, w8, w9, w10, w11, w12, w13, w14, w15, w16, w17⟩ := idx_wholes t
  unfold iblk
  rw [View.read_apply]
  show V m c main_v6 _ = _
  refine (congrFun (V_rowBu0 m c) _).trans ?_
  refine shapeCast_apply (s := S768) (t := S1x768) _ _ _ _ ?_
  rw [Shape.rowMajor_val_one, Shape.rowMajor_val_two]
  show k.val = (win0_5.index t (0 : Fin 2) * 1 + 1 * 0) * 768 + (win0_5.index t (1 : Fin 2) * 768 + 1 * k.val)
  rw [w5.1, w5.2]; omega

theorem bd1Block_apply (c : Dev nD) (t : Fin cfg0.N) (k : Fin 32) :
    (iblk m c 7 t : Vec Ideal S1x32 .f32) (ix2 (0 : Fin 1) k) = (m ((c : Thread nD τ).loc main_arg7) : S32.Idx → EReal) (ix1 k) := by
  obtain ⟨w2, w3, w4, w5, w6, w7, w8, w9, w10, w11, w12, w13, w14, w15, w16, w17⟩ := idx_wholes t
  unfold iblk
  rw [View.read_apply]
  show V m c main_v3 _ = _
  refine (congrFun (V_rowBd1 m c) _).trans ?_
  refine shapeCast_apply (s := S32) (t := S1x32) _ _ _ _ ?_
  rw [Shape.rowMajor_val_one, Shape.rowMajor_val_two]
  show k.val = (win0_7.index t (0 : Fin 2) * 1 + 1 * 0) * 32 + (win0_7.index t (1 : Fin 2) * 32 + 1 * k.val)
  rw [w7.1, w7.2]; omega

theorem bu1Block_apply (c : Dev nD) (t : Fin cfg0.N) (k : Fin 768) :
    (iblk m c 9 t : Vec Ideal S1x768 .f32) (ix2 (0 : Fin 1) k) = (m ((c : Thread nD τ).loc main_arg9) : S768.Idx → EReal) (ix1 k) := by
  obtain ⟨w2, w3, w4, w5, w6, w7, w8, w9, w10, w11, w12, w13, w14, w15, w16, w17⟩ := idx_wholes t
  unfold iblk
  rw [View.read_apply]
  show V m c main_v7 _ = _
  refine (congrFun (V_rowBu1 m c) _).trans ?_
  refine shapeCast_apply (s := S768) (t := S1x768) _ _ _ _ ?_
  rw [Shape.rowMajor_val_one, Shape.rowMajor_val_two]
  show k.val = (win0_9.index t (0 : Fin 2) * 1 + 1 * 0) * 768 + (win0_9.index t (1 : Fin 2) * 768 + 1 * k.val)
  rw [w9.1, w9.2]; omega

theorem bd2Block_apply (c : Dev nD) (t : Fin cfg0.N) (k : Fin 64) :
    (iblk m c 11 t : Vec Ideal S1x64 .f32) (ix2 (0 : Fin 1) k) = (m ((c : Thread nD τ).loc main_arg11) : S64.Idx → EReal) (ix1 k) := by
  obtain ⟨w2, w3, w4, w5, w6, w7, w8, w9, w10, w11, w12, w13, w14, w15, w16, w17⟩ := idx_wholes t
  unfold iblk
  rw [View.read_apply]
  show V m c main_v4 _ = _
  refine (congrFun (V_rowBd2 m c) _).trans ?_
  refine shapeCast_apply (s := S64) (t := S1x64) _ _ _ _ ?_
  rw [Shape.rowMajor_val_one, Shape.rowMajor_val_two]
  show k.val = (win0_11.index t (0 : Fin 2) * 1 + 1 * 0) * 64 + (win0_11.index t (1 : Fin 2) * 64 + 1 * k.val)
  rw [w11.1, w11.2]; omega

theorem bu2Block_apply (c : Dev nD) (t : Fin cfg0.N) (k : Fin 768) :
    (iblk m c 13 t : Vec Ideal S1x768 .f32) (ix2 (0 : Fin 1) k) = (m ((c : Thread nD τ).loc main_arg13) : S768.Idx → EReal) (ix1 k) := by
  obtain ⟨w2, w3, w4, w5, w6, w7, w8, w9, w10, w11, w12, w13, w14, w15, w16, w17⟩ := idx_wholes t
  unfold iblk
  rw [View.read_apply]
  show V m c main_v8 _ = _
  refine (congrFun (V_rowBu2 m c) _).trans ?_
  refine shapeCast_apply (s := S768) (t := S1x768) _ _ _ _ ?_
  rw [Shape.rowMajor_val_one, Shape.rowMajor_val_two]
  show k.val = (win0_13.index t (0 : Fin 2) * 1 + 1 * 0) * 768 + (win0_13.index t (1 : Fin 2) * 768 + 1 * k.val)
  rw [w13.1, w13.2]; omega

theorem bd3Block_apply (c : Dev nD) (t : Fin cfg0.N) (k : Fin 128) :
    (iblk m c 15 t : Vec Ideal S1x128 .f32) (ix2 (0 : Fin 1) k) = (m ((c : Thread nD τ).loc main_arg15) : S128.Idx → EReal) (ix1 k) := by
  obtain ⟨w2, w3, w4, w5, w6, w7, w8, w9, w10, w11, w12, w13, w14, w15, w16, w17⟩ := idx_wholes t
  unfold iblk
  rw [View.read_apply]
  show V m c main_v5 _ = _
  refine (congrFun (V_rowBd3 m c) _).trans ?_
  refine shapeCast_apply (s := S128) (t := S1x128) _ _ _ _ ?_
  rw [Shape.rowMajor_val_one, Shape.rowMajor_val_two]
  show k.val = (win0_15.index t (0 : Fin 2) * 1 + 1 * 0) * 128 + (win0_15.index t (1 : Fin 2) * 128 + 1 * k.val)
  rw [w15.1, w15.2]; omega

theorem bu3Block_apply (c : Dev nD) (t : Fin cfg0.N) (k : Fin 768) :
    (iblk m c 17 t : Vec Ideal S1x768 .f32) (ix2 (0 : Fin 1) k) = (m ((c : Thread nD τ).loc main_arg17) : S768.Idx → EReal) (ix1 k) := by
  obtain ⟨w2, w3, w4, w5, w6, w7, w8, w9, w10, w11, w12, w13, w14, w15, w16, w17⟩ := idx_wholes t
  unfold iblk
  rw [View.read_apply]
  show V m c main_v9 _ = _
  refine (congrFun (V_rowBu3 m c) _).trans ?_
  refine shapeCast_apply (s := S768) (t := S1x768) _ _ _ _ ?_
  rw [Shape.rowMajor_val_one, Shape.rowMajor_val_two]
  show k.val = (win0_17.index t (0 : Fin 2) * 1 + 1 * 0) * 768 + (win0_17.index t (1 : Fin 2) * 768 + 1 * k.val)
  rw [w17.1, w17.2]; omega

/-! ## One expert: its row spelling over a point's blocks is its token spelling over the arguments -/

theorem rowExpert_eq_tokenExpert {K : ℕ}
    (xb : FVec Ideal ⟨2, ![2048, 768]⟩ .f32) (lb : IVec ⟨2, ![2048, 1]⟩ 32)
    (Wdb : FVec Ideal ⟨2, ![768, K]⟩ .f32) (bdb : FVec Ideal ⟨2, ![1, K]⟩ .f32)
    (Wub : FVec Ideal ⟨2, ![K, 768]⟩ .f32) (bub : FVec Ideal ⟨2, ![1, 768]⟩ .f32)
    (x : FVec Ideal ⟨3, ![16, 2048, 768]⟩ .f32) (lab : IVec ⟨2, ![16, 2048]⟩ 32)
    (Wd : FVec Ideal ⟨2, ![768, K]⟩ .f32) (bd : FVec Ideal ⟨1, ![K]⟩ .f32)
    (Wu : FVec Ideal ⟨2, ![K, 768]⟩ .f32) (bu : FVec Ideal ⟨1, ![768]⟩ .f32) (e : BitVec 32)
    (b : Fin 16) (r : Fin 2048) (q : Fin 768)
    (hx : ∀ j, xb (ix2 r j) = x (ix3 b r j)) (hl : lb (ix2 r (0 : Fin 1)) = lab (ix2 b r))
    (hWd : Wdb = Wd) (hbd : ∀ k, bdb (ix2 (0 : Fin 1) k) = bd (ix1 k))
    (hWu : Wub = Wu) (hbu : ∀ j, bub (ix2 (0 : Fin 1) j) = bu (ix1 j)) :
    rowExpert xb lb Wdb bdb Wub bub e r q = tokenExpert x lab Wd bd Wu bu e b r q := by
  subst hWd hWu
  unfold rowExpert tokenExpert
  simp only [hx, hl, hbd, hbu]

/-! ## What point t writes back, the cover, and the flat output array -/

/-- The layer's output of the launch contents of the eighteen arguments. -/
abbrev layerOut (c : Dev nD) : FVec Ideal ⟨3, ![16, 2048, 768]⟩ .f32 :=
  moe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The same with (batch, token) flattened to one axis of 32768 rows: what the region's output array ends holding. -/
def flatOut (c : Dev nD) : S32768x768.Idx → EReal :=
  shapeCast S32768x768 (layerOut m c) shapeCasts_S16x2048x768_S32768x768

/-- Entry (r, q) of what the body leaves at point t is the flat output at row 2048·t + r. -/
theorem point_writes (c : Dev nD) (t : Fin cfg0.N) (r : Fin 2048) (q : Fin 768) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r q)
      = flatOut m c (((cfg0.win 18).blk t).view.emb (ix2 r q)) := by
  obtain ⟨-, -, -, -, h0, h1⟩ := idx_tiles t
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r q).trans ?_
  have hflat : flatOut m c (((cfg0.win 18).blk t).view.emb (ix2 r q)) = layerOut m c (ix3 (batch t) r q) := by
    unfold flatOut
    refine shapeCast_apply (s := S16x2048x768) (t := S32768x768) _ _ _ _ ?_
    rw [Shape.rowMajor_val_three, Shape.rowMajor_val_two]
    show (t.val * 2048 + r.val) * 768 + q.val
      = (win0_18.index t (0 : Fin 2) * 2048 + 1 * r.val) * 768 + (win0_18.index t (1 : Fin 2) * 768 + 1 * q.val)
    rw [h0, h1]; omega
  rw [hflat]
  show _ = moeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (batch t) r q
  unfold moeAt
  rw [rowExpert_eq_tokenExpert (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 0#32
      (batch t) r q (xBlock_apply m c t r) (labBlock_apply m c t r) (wd0Block m c t) (bd0Block_apply m c t)
      (wu0Block m c t) (bu0Block_apply m c t),
    rowExpert_eq_tokenExpert (iblk m c 0 t) (iblk m c 1 t) (iblk m c 6 t) (iblk m c 7 t) (iblk m c 8 t) (iblk m c 9 t)
      (m ((c : Thread nD τ).loc main_arg0)) (m ((c : Thread nD τ).loc main_arg1)) (m ((c : Thread nD τ).loc main_arg6))
      (m ((c : Thread nD τ).loc main_arg7)) (m ((c : Thread nD τ).loc main_arg8)) (m ((c : Thread nD τ).loc main_arg9)) 1#32
      (batch t) r q (xBlock_apply m c t r) (labBlock_apply m c t r) (wd1Block m c t) (bd1Block_apply m c t)
      (wu1Block m c t) (bu1Block_apply m c t),
    rowExpert_eq_tokenExpert (iblk m c 0 t) (iblk m c 1 t) (iblk m c 10 t) (iblk m c 11 t) (iblk m c 12 t) (iblk m c 13 t)
      (m ((c : Thread nD τ).loc main_arg0)) (m ((c : Thread nD τ).loc main_arg1)) (m ((c : Thread nD τ).loc main_arg10))
      (m ((c : Thread nD τ).loc main_arg11)) (m ((c : Thread nD τ).loc main_arg12)) (m ((c : Thread nD τ).loc main_arg13)) 2#32
      (batch t) r q (xBlock_apply m c t r) (labBlock_apply m c t r) (wd2Block m c t) (bd2Block_apply m c t)
      (wu2Block m c t) (bu2Block_apply m c t),
    rowExpert_eq_tokenExpert (iblk m c 0 t) (iblk m c 1 t) (iblk m c 14 t) (iblk m c 15 t) (iblk m c 16 t) (iblk m c 17 t)
      (m ((c : Thread nD τ).loc main_arg0)) (m ((c : Thread nD τ).loc main_arg1)) (m ((c : Thread nD τ).loc main_arg14))
      (m ((c : Thread nD τ).loc main_arg15)) (m ((c : Thread nD τ).loc main_arg16)) (m ((c : Thread nD τ).loc main_arg17)) 3#32
      (batch t) r q (xBlock_apply m c t r) (labBlock_apply m c t r) (wd3Block m c t) (bd3Block_apply m c t)
      (wu3Block m c t) (bu3Block_apply m c t)]

/-- WHAT POINT t WRITES BACK is block t of the flat output. -/
theorem flushed_eq (c : Dev nD) (t : Fin cfg0.N) :
    (dats m 0 c).flushed 18 t = ((cfg0.win 18).blk t).view.read (Elt Ideal) (flatOut m c) := by
  show (cfg0.win 18).cut (grid0.coords t) ((dats m 0 c).after 18 t) = _
  rw [after0_18]
  funext y
  obtain ⟨r, q, rfl⟩ : ∃ (r : Fin 2048) (q : Fin 768), y = ix2 r q := ⟨y 0, y 1, eq_ix2 y⟩
  rw [View.read_apply]
  exact point_writes m c t r q

/-- The sixteen blocks tile the flat array: row i is in block i / 2048. -/
theorem covered (i : S32768x768.Idx) :
    ∃ t : Fin cfg0.N, (cfg0.win 18).flush t = true ∧ i ∈ ((cfg0.win 18).blk t).view.set := by
  have hi0 : (i 0).val < 32768 := (i 0).isLt
  have hi1 : (i 1).val < 768 := (i 1).isLt
  have hN : cfg0.N = 16 := N_0
  obtain ⟨t, ht⟩ : ∃ t : Fin cfg0.N, t.val = (i 0).val / 2048 := ⟨⟨(i 0).val / 2048, by omega⟩, rfl⟩
  obtain ⟨-, -, -, -, h0, h1⟩ := idx_tiles t
  refine ⟨t, flush0_18 t, ?_⟩
  show i ∈ ((View.whole main_v10).slice (win0_18.rect t)).set
  rw [View.set_slice_whole, Rect.mem_set_unit]
  intro a
  match a with
  | ⟨0, _⟩ =>
    show win0_18.index t (0 : Fin 2) * 2048 ≤ (i 0).val ∧ (i 0).val < win0_18.index t (0 : Fin 2) * 2048 + 2048
    rw [h0, ht]; omega
  | ⟨1, _⟩ =>
    show win0_18.index t (1 : Fin 2) * 768 ≤ (i 1).val ∧ (i 1).val < win0_18.index t (1 : Fin 2) * 768 + 768
    rw [h1]; omega

/-- So the region's output array ends holding the flat output. -/
theorem flat_final (c : Dev nD) : (dats m 0 c).arrAt 18 cfg0.N = flatOut m c :=
  (dats m 0 c).arrAt_eq_of_cover 18 (flatOut m c) (fun t _ => flushed_eq m c t) covered

/-! ## The host reshape after the region, and the run -/

/-- After the region the host reshapes the flat array back to [16, 2048, 768]: the layer's output. -/
theorem result_after_tail (c : Dev nD) :
    Pipeline.afterTail₀ cfgs (dats m) 0 (V0 m) [hostOps1] c main_v11 = layerOut m c := by
  unfold Pipeline.afterTail₀
  show StableHlo.after hostOps1 _ (Proc.devRef .tc main_v11) = _
  after_results
  refine (congrArg (fun a => shapeCast S16x2048x768 a shapeCasts_S32768x768_S16x2048x768)
    ((Pipeline.withArrays_arr spec0 launch0.win.arr_inj c _ _ 18).trans (flat_final m c))).trans ?_
  exact shapeCast_shapeCast _ _ _

/-- The kernel's run, read: its result is the layer's output of its arguments, and the arguments end as launched. -/
theorem run : θ_run defs (onTc (τ := τ) (main (F := Ideal))) ⟨m, fun _ => 0, ρ⟩ (fun r => ∀ c : Dev nD,
      r.2.mem ((c.tc : Thread nD τ).loc main_v11) = layerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨((h c).2 main_v11 (Pipeline.mem_restRefs_of main_v11 (by decide) (by decide))).trans (result_after_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c))),
      ((h c).2 main_arg13 (Pipeline.mem_restRefs_of main_arg13 (by decide) (by decide))).trans (W_main_arg13 m (dats m) c),
      ((h c).1 14).trans (((dats m 0 c).arrAt_in 14 rfl _).trans ((A_eq m c 14).trans (V_main_arg14 m c))),
      ((h c).2 main_arg15 (Pipeline.mem_restRefs_of main_arg15 (by decide) (by decide))).trans (W_main_arg15 m (dats m) c),
      ((h c).1 16).trans (((dats m 0 c).arrAt_in 16 rfl _).trans ((A_eq m c 16).trans (V_main_arg16 m c))),
      ((h c).2 main_arg17 (Pipeline.mem_restRefs_of main_arg17 (by decide) (by decide))).trans (W_main_arg17 m (dats m) c)⟩)
    (run_main m ρ)

end Cert.Moe.Kernel

end
-- ==== Proof.RefValue.lean ====
/-
  The reference, read at an entry.

  The reference computes each expert over the whole [16, 2048, ·] arrays: a product contracted over the model width,
  the bias broadcast over tokens, the positive part, the second product, the second bias, the activations added back,
  and the product with the label comparison converted to a float and broadcast along the row. Read at (b, s, c) each
  operation reads its operands at the same token, so expert n's array at (b, s, c) is `tokenExpert` of token (b, s);
  the four are added to the zero array in order.
-/
import proofs.«136440_j26680336842992_1_alg».proof.Proof.Gen.ReferenceIdeal.Read
import proofs.«136440_j26680336842992_1_alg».proof.Proof.MoeSpec

set_option maxRecDepth 16384

noncomputable section

namespace Cert.Moe.Ref

open Cert.ReferenceIdeal Cert.ReferenceIdeal.Read Idealize.ShloMosaic Idealize.ShloMosaic.ValueIdx Cert.Moe

/-- Two indices of a rank-1 / rank-2 / rank-3 array with the same coordinates are the same index. -/
macro "same_idx1" : tactic => `(tactic| exact congrArg _ (funext fun a => by match a with | ⟨0, _⟩ => rfl))
macro "same_idx2" : tactic => `(tactic| exact congrArg _ (funext fun a => by match a with | ⟨0, _⟩ => rfl | ⟨1, _⟩ => rfl))
macro "same_idx3" : tactic =>
  `(tactic| exact congrArg _ (funext fun a => by match a with | ⟨0, _⟩ => rfl | ⟨1, _⟩ => rfl | ⟨2, _⟩ => rfl))

/-- Expert 0 (hidden width 16) of the reference at (b, s, c). -/
theorem expert0 (x0 : FVec Ideal S16x2048x768 .f32) (x1 : IVec S16x2048 32) (x2 : FVec Ideal S768x16 .f32)
    (x3 : FVec Ideal S16 .f32) (x4 : FVec Ideal S16x768 .f32) (x5 : FVec Ideal S768 .f32)
    (b : Fin 16) (s : Fin 2048) (c : Fin 768) :
    val_main_v16 (F := Ideal) x0 x1 x2 x3 x4 x5 (ix3 b s c) = tokenExpert x0 x1 x2 x3 x4 x5 0#32 b s c := by
  rw [val_main_v16_apply, val_main_v10_apply, val_main_v9_apply, val_main_v6_apply, val_main_v8_apply,
    val_main_v7_apply, val_main_v15_apply, val_main_v14_apply, val_main_v13_apply, val_main_v12_apply,
    val_main_v11_apply, val_main_c_apply]
  unfold tokenExpert expertAt selector
  refine congrArg₂ (· * ·) (congrArg₂ (· + ·) (congrArg₂ (· + ·) (Finset.sum_congr rfl fun k _ => ?_) ?_) rfl) ?_
  · rw [val_main_v5_apply, val_main_v4_apply, val_main_v1_apply, val_main_v3_apply, val_main_v2_apply,
      val_main_call0_v0_apply, val_main_call0_cst_apply]
    refine congrArg₂ (· * ·) (congrArg₂ max (congrArg₂ (· + ·) (Finset.sum_congr rfl fun j _ => ?_) ?_) rfl) ?_
    · refine congrArg₂ (· * ·) ?_ ?_
      · same_idx3
      · same_idx2
    · same_idx1
    · same_idx2
  · same_idx1
  · refine congrArg (FloatOps.uitofp (F := Ideal) .f32) (congrArg (fun l => IntOp.cmpi .eq l 0#32) ?_)
    same_idx2

/-- Expert 1 (hidden width 32) of the reference at (b, s, c). -/
theorem expert1 (x0 : FVec Ideal S16x2048x768 .f32) (x1 : IVec S16x2048 32) (x6 : FVec Ideal S768x32 .f32)
    (x7 : FVec Ideal S32 .f32) (x8 : FVec Ideal S32x768 .f32) (x9 : FVec Ideal S768 .f32)
    (b : Fin 16) (s : Fin 2048) (c : Fin 768) :
    val_main_v33 (F := Ideal) x0 x1 x6 x7 x8 x9 (ix3 b s c) = tokenExpert x0 x1 x6 x7 x8 x9 1#32 b s c := by
  rw [val_main_v33_apply, val_main_v27_apply, val_main_v26_apply, val_main_v23_apply, val_main_v25_apply,
    val_main_v24_apply, val_main_v32_apply, val_main_v31_apply, val_main_v30_apply, val_main_v29_apply,
    val_main_v28_apply, val_main_c_0_apply]
  unfold tokenExpert expertAt selector
  refine congrArg₂ (· * ·) (congrArg₂ (· + ·) (congrArg₂ (· + ·) (Finset.sum_congr rfl fun k _ => ?_) ?_) rfl) ?_
  · rw [val_main_v22_apply, val_main_v21_apply, val_main_v18_apply, val_main_v20_apply, val_main_v19_apply,
      val_main_call1_v0_apply, val_main_call1_cst_apply]
    refine congrArg₂ (· * ·) (congrArg₂ max (congrArg₂ (· + ·) (Finset.sum_congr rfl fun j _ => ?_) ?_) rfl) ?_
    · refine congrArg₂ (· * ·) ?_ ?_
      · same_idx3
      · same_idx2
    · same_idx1
    · same_idx2
  · same_idx1
  · refine congrArg (FloatOps.uitofp (F := Ideal) .f32) (congrArg (fun l => IntOp.cmpi .eq l 1#32) ?_)
    same_idx2

/-- Expert 2 (hidden width 64) of the reference at (b, s, c). -/
theorem expert2 (x0 : FVec Ideal S16x2048x768 .f32) (x1 : IVec S16x2048 32) (x10 : FVec Ideal S768x64 .f32)
    (x11 : FVec Ideal S64 .f32) (x12 : FVec Ideal S64x768 .f32) (x13 : FVec Ideal S768 .f32)
    (b : Fin 16) (s : Fin 2048) (c : Fin 768) :
    val_main_v50 (F := Ideal) x0 x1 x10 x11 x12 x13 (ix3 b s c) = tokenExpert x0 x1 x10 x11 x12 x13 2#32 b s c := by
  rw [val_main_v50_apply, val_main_v44_apply, val_main_v43_apply, val_main_v40_apply, val_main_v42_apply,
    val_main_v41_apply, val_main_v49_apply, val_main_v48_apply, val_main_v47_apply, val_main_v46_apply,
    val_main_v45_apply, val_main_c_1_apply]
  unfold tokenExpert expertAt selector
  refine congrArg₂ (· * ·) (congrArg₂ (· + ·) (congrArg₂ (· + ·) (Finset.sum_congr rfl fun k _ => ?_) ?_) rfl) ?_
  · rw [val_main_v39_apply, val_main_v38_apply, val_main_v35_apply, val_main_v37_apply, val_main_v36_apply,
      val_main_call2_v0_apply, val_main_call2_cst_apply]
    refine congrArg₂ (· * ·) (congrArg₂ max (congrArg₂ (· + ·) (Finset.sum_congr rfl fun j _ => ?_) ?_) rfl) ?_
    · refine congrArg₂ (· * ·) ?_ ?_
      · same_idx3
      · same_idx2
    · same_idx1
    · same_idx2
  · same_idx1
  · refine congrArg (FloatOps.uitofp (F := Ideal) .f32) (congrArg (fun l => IntOp.cmpi .eq l 2#32) ?_)
    same_idx2

/-- Expert 3 (hidden width 128) of the reference at (b, s, c). -/
theorem expert3 (x0 : FVec Ideal S16x2048x768 .f32) (x1 : IVec S16x2048 32) (x14 : FVec Ideal S768x128 .f32)
    (x15 : FVec Ideal S128 .f32) (x16 : FVec Ideal S128x768 .f32) (x17 : FVec Ideal S768 .f32)
    (b : Fin 16) (s : Fin 2048) (c : Fin 768) :
    val_main_v67 (F := Ideal) x0 x1 x14 x15 x16 x17 (ix3 b s c) = tokenExpert x0 x1 x14 x15 x16 x17 3#32 b s c := by
  rw [val_main_v67_apply, val_main_v61_apply, val_main_v60_apply, val_main_v57_apply, val_main_v59_apply,
    val_main_v58_apply, val_main_v66_apply, val_main_v65_apply, val_main_v64_apply, val_main_v63_apply,
    val_main_v62_apply, val_main_c_2_apply]
  unfold tokenExpert expertAt selector
  refine congrArg₂ (· * ·) (congrArg₂ (· + ·) (congrArg₂ (· + ·) (Finset.sum_congr rfl fun k _ => ?_) ?_) rfl) ?_
  · rw [val_main_v56_apply, val_main_v55_apply, val_main_v52_apply, val_main_v54_apply, val_main_v53_apply,
      val_main_call3_v0_apply, val_main_call3_cst_apply]
    refine congrArg₂ (· * ·) (congrArg₂ max (congrArg₂ (· + ·) (Finset.sum_congr rfl fun j _ => ?_) ?_) rfl) ?_
    · refine congrArg₂ (· * ·) ?_ ?_
      · same_idx3
      · same_idx2
    · same_idx1
    · same_idx2
  · same_idx1
  · refine congrArg (FloatOps.uitofp (F := Ideal) .f32) (congrArg (fun l => IntOp.cmpi .eq l 3#32) ?_)
    same_idx2

/-- The reference's result array is the layer's output array: the four experts added to the zero array in order. -/
theorem result_eq (x0 : FVec Ideal S16x2048x768 .f32) (x1 : IVec S16x2048 32)
    (x2 : FVec Ideal S768x16 .f32) (x3 : FVec Ideal S16 .f32) (x4 : FVec Ideal S16x768 .f32) (x5 : FVec Ideal S768 .f32)
    (x6 : FVec Ideal S768x32 .f32) (x7 : FVec Ideal S32 .f32) (x8 : FVec Ideal S32x768 .f32) (x9 : FVec Ideal S768 .f32)
    (x10 : FVec Ideal S768x64 .f32) (x11 : FVec Ideal S64 .f32) (x12 : FVec Ideal S64x768 .f32) (x13 : FVec Ideal S768 .f32)
    (x14 : FVec Ideal S768x128 .f32) (x15 : FVec Ideal S128 .f32) (x16 : FVec Ideal S128x768 .f32) (x17 : FVec Ideal S768 .f32) :
    val_main_v68 (F := Ideal) x0 x1 x2 x3 x4 x5 x6 x7 x8 x9 x10 x11 x12 x13 x14 x15 x16 x17
      = moe x0 x1 x2 x3 x4 x5 x6 x7 x8 x9 x10 x11 x12 x13 x14 x15 x16 x17 := by
  funext i
  obtain ⟨b, s, c, rfl⟩ : ∃ (b : Fin 16) (s : Fin 2048) (c : Fin 768), i = ix3 b s c := ⟨i 0, i 1, i 2, eq_ix3 i⟩
  rw [val_main_v68_apply, val_main_v51_apply, val_main_v34_apply, val_main_v17_apply, val_main_v0_apply,
    val_main_cst_apply, expert0, expert1, expert2, expert3]
  rfl

end Cert.Moe.Ref

end
-- ==== Proof.lean ====
/-
  A gated mixture of four low-rank experts: the kernel and its reference compute the same array.

  Inputs: activations x [16, 2048, 768], a label in {0, 1, 2, 3} per token, lab [16, 2048], and for expert n of hidden
  width K_n = 16, 32, 64, 128 a down-projection Wd_n [768, K_n] with bias bd_n [K_n] and an up-projection Wu_n [K_n, 768]
  with bias bu_n [768]. For token (b, s) and entry c,

      out(b, s, c) = (((0 + E_0) + E_1) + E_2) + E_3,
      E_n = ((Σ_k max((Σ_j x(b,s,j) · Wd_n(j,k)) + bd_n(k), 0) · Wu_n(k,c)) + bu_n(c) + x(b,s,c)) · [lab(b,s) = n].

  The reference computes E_n over the whole arrays, one operation at a time. The kernel flattens (b, s) to 32768 rows,
  runs 16 grid points of 2048 rows each with every weight and bias resident, forms each E_n on the block by two matrix
  products into zero accumulators, and unflattens the result. At the extended reals the two are the same function of
  the arguments, entry by entry: a product into a zero accumulator is the plain sum of products; a comparison bit
  widened to a word and read signed is the bit read unsigned; row 2048·t + r of a flattened array is token (t, r); the
  16 blocks tile the flat output; flattening then unflattening is the identity. The experts are added in the same order
  on both sides, so no law of arithmetic beyond 0 + s = s is used and the inputs' finiteness is not needed.

  Modules: LibExpert (one expert's block spelling read at an entry, for any sizes), MoeSpec (the function above),
  RefValue (the reference is that function), KernelBlock (what the body stores, at an entry), KernelValue (blocks,
  cover, the host reshapes, the kernel's run). The three frames are the generated ones (the reference's frame is its
  generated run with the result dropped); the idealization rewrote nothing, so `preserves` is `True`.
-/
import proofs.«136440_j26680336842992_1_alg».proof.Defs
import proofs.«136440_j26680336842992_1_alg».proof.Proof.Gen.Kernel
import proofs.«136440_j26680336842992_1_alg».proof.Proof.Gen.Kernel.Skeleton
import proofs.«136440_j26680336842992_1_alg».proof.Proof.Gen.Kernel.Launch
import proofs.«136440_j26680336842992_1_alg».proof.Proof.Gen.Kernel.Points
import proofs.«136440_j26680336842992_1_alg».proof.Proof.Gen.Kernel.Frame
import proofs.«136440_j26680336842992_1_alg».proof.Proof.Gen.KernelIdeal
import proofs.«136440_j26680336842992_1_alg».proof.Proof.Gen.KernelIdeal.Skeleton
import proofs.«136440_j26680336842992_1_alg».proof.Proof.Gen.KernelIdeal.Launch
import proofs.«136440_j26680336842992_1_alg».proof.Proof.Gen.KernelIdeal.Points
import proofs.«136440_j26680336842992_1_alg».proof.Proof.Gen.KernelIdeal.Frame
import proofs.«136440_j26680336842992_1_alg».proof.Proof.Gen.ReferenceIdeal
import proofs.«136440_j26680336842992_1_alg».proof.Proof.Gen.Pre_finite_inputs
import proofs.«136440_j26680336842992_1_alg».proof.Proof.Gen.ReferenceIdeal.Run
import proofs.«136440_j26680336842992_1_alg».proof.Proof.Gen.ReferenceIdeal.Read
import proofs.«136440_j26680336842992_1_alg».proof.Proof.KernelValue
import proofs.«136440_j26680336842992_1_alg».proof.Proof.RefValue
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's output of those arguments. -/
theorem algebraic : Cert.algebraic_KernelIdeal_ReferenceIdeal := by
  intro m ρ m' ρ' _ hagree
  refine ⟨fun c => Cert.Moe.Kernel.layerOut m c, Cert.Moe.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  rw [Cert.ReferenceIdeal.Read.val_main_v68_eq, e0, e1, e2, e3, e4, e5, e6, e7, e8, e9, e10, e11, e12, e13, e14, e15,
    e16, e17]
  exact Cert.Moe.Ref.result_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
